-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x2x4096x128 : Shape := ⟨4, ![3, 2, 4096, 128]⟩
abbrev S_ : Shape := ⟨0, ![]⟩

class Facts : Prop where
  bcast_S_S3x2x4096x128 : S_.BroadcastsInDim S3x2x4096x128 (![] : Fin 0 → Fin S3x2x4096x128.rank)
  reducesTo_S3x2x4096x128_S_d0_1_2_3 : S3x2x4096x128.ReducesTo [0, 1, 2, 3] S_
  h_S_ : 0 < S_.numel

variable [Facts]

def fn {F : FTy → Type} [FloatOps F] (main_arg0 : FVec F S3x2x4096x128 .f32) : IVec S_ 1 :=
  let main_v0 : FVec F S3x2x4096x128 .f32 := Host.absf main_arg0
  let main_cst : FVec F S_ .f32 := constant S_ .f32 0x7F800000#32
  let main_v1 : FVec F S3x2x4096x128 .f32 := broadcastInDim S3x2x4096x128 ![] bcast_S_S3x2x4096x128 main_cst
  let main_v2 : IVec S3x2x4096x128 1 := cmpf .olt main_v0 main_v1
  let main_c : IVec S_ 1 := constantI S_ 1 1#1
  let main_v3 : IVec S_ 1 := (fun x v => Host.reduce IntOp.andi x v reducesTo_S3x2x4096x128_S_d0_1_2_3 h_S_) main_v2 main_c
  main_v3
-- ==== Kernel.lean ====
abbrev S3x2x4096x128 : Shape := ⟨4, ![3, 2, 4096, 128]⟩
abbrev S1x2x4096x128 : Shape := ⟨4, ![1, 2, 4096, 128]⟩
abbrev S2x4096x128 : Shape := ⟨3, ![2, 4096, 128]⟩
abbrev S2x256x4x4x128 : Shape := ⟨5, ![2, 256, 4, 4, 128]⟩
abbrev S1x256x1x4x128 : Shape := ⟨5, ![1, 256, 1, 4, 128]⟩
abbrev S256x4x128 : Shape := ⟨3, ![256, 4, 128]⟩
abbrev S1024x128 : Shape := ⟨2, ![1024, 128]⟩
abbrev S1024x32 : Shape := ⟨2, ![1024, 32]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 8
  | .smem => 0
  | _ => 0

abbrev bufTy : (tb : Table) → Fin (tcTables nBuf tb) → BufTy
  | .hbm, ⟨0, _⟩ => ⟨S3x2x4096x128, .f32⟩
  | .hbm, ⟨1, _⟩ => ⟨S1x2x4096x128, .f32⟩
  | .hbm, ⟨2, _⟩ => ⟨S2x4096x128, .f32⟩
  | .hbm, ⟨3, _⟩ => ⟨S1x2x4096x128, .f32⟩
  | .hbm, ⟨4, _⟩ => ⟨S2x4096x128, .f32⟩
  | .hbm, ⟨5, _⟩ => ⟨S1x2x4096x128, .f32⟩
  | .hbm, ⟨6, _⟩ => ⟨S2x4096x128, .f32⟩
  | .hbm, ⟨7, _⟩ => ⟨S2x256x4x4x128, .f32⟩
  | .hbm, ⟨8, _⟩ => ⟨S2x256x4x4x128, .f32⟩
  | .hbm, ⟨9, _⟩ => ⟨S2x256x4x4x128, .f32⟩
  | .hbm, ⟨10, _⟩ => ⟨S2x256x4x4x128, .f32⟩
  | .hbm, ⟨11, _⟩ => ⟨S2x4096x128, .f32⟩
  | .local _ .vmem, ⟨0, _⟩ => ⟨S1x256x1x4x128, .f32⟩
  | .local _ .vmem, ⟨1, _⟩ => ⟨S1x256x1x4x128, .f32⟩
  | .local _ .vmem, ⟨2, _⟩ => ⟨S1x256x1x4x128, .f32⟩
  | .local _ .vmem, ⟨3, _⟩ => ⟨S1x256x1x4x128, .f32⟩
  | .local _ .vmem, ⟨4, _⟩ => ⟨S1x256x1x4x128, .f32⟩
  | .local _ .vmem, ⟨5, _⟩ => ⟨S1x256x1x4x128, .f32⟩
  | .local _ .vmem, ⟨6, _⟩ => ⟨S1x256x1x4x128, .f32⟩
  | .local _ .vmem, ⟨7, _⟩ => ⟨S1x256x1x4x128, .f32⟩
  | _, _ => ⟨S3x2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S3x2x4096x128_S1x2x4096x128_0_0_0_0 : S3x2x4096x128.Slices ![0, 0, 0, 0] S1x2x4096x128
  shapeCasts_S1x2x4096x128_S2x4096x128 : S1x2x4096x128.ShapeCasts S2x4096x128
  slices_S3x2x4096x128_S1x2x4096x128_1_0_0_0 : S3x2x4096x128.Slices ![1, 0, 0, 0] S1x2x4096x128
  slices_S3x2x4096x128_S1x2x4096x128_2_0_0_0 : S3x2x4096x128.Slices ![2, 0, 0, 0] S1x2x4096x128
  shapeCasts_S2x4096x128_S2x256x4x4x128 : S2x4096x128.ShapeCasts S2x256x4x4x128
  inb_S1x256x1x4x128_S1x256x1x4x128_0_0_0_0_0 : ∀ a, (![0, 0, 0, 0, 0] : Fin 5 → Nat) a + S1x256x1x4x128.size a ≤ S1x256x1x4x128.size a
  h_S1x256x1x4x128 : 0 < S1x256x1x4x128.numel
  shapeCasts_S1x256x1x4x128_S256x4x128 : S1x256x1x4x128.ShapeCasts S256x4x128
  shapeCasts_S256x4x128_S1024x128 : S256x4x128.ShapeCasts S1024x128
  slices_S1024x128_o0_0_S1024x32 : S1024x128.Slices ![0, 0] S1024x32
  bitsLt_bf16_f32 : FTy.bits .bf16 < FTy.bits .f32
  transposes_S1024x32_p1_0_S32x1024 : S1024x32.Transposes [1, 0] S32x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x32 : S1024x1.Broadcasts S1024x32
  slices_S1024x128_o0_32_S1024x32 : S1024x128.Slices ![0, 32] S1024x32
  slices_S1024x128_o0_64_S1024x32 : S1024x128.Slices ![0, 64] S1024x32
  slices_S1024x128_o0_96_S1024x32 : S1024x128.Slices ![0, 96] S1024x32
  concatenates_S1024x32_S1024x32_S1024x32_S1024x32_S1024x128_d1 : Shape.Concatenates [S1024x32, S1024x32, S1024x32, S1024x32] S1024x128 1
  shapeCasts_S1024x128_S256x4x128 : S1024x128.ShapeCasts S256x4x128
  shapeCasts_S256x4x128_S1x256x1x4x128 : S256x4x128.ShapeCasts S1x256x1x4x128
  shapeCasts_S2x256x4x4x128_S2x4096x128 : S2x256x4x4x128.ShapeCasts S2x4096x128
  dot_S1024x32_S32x1024_S1024x1024_1_0_0_1_n_n_wf : DotDims.WF S1024x32 S32x1024 S1024x1024 [1] [0] [0] [1] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1x4x128.size a ≤ S2x256x4x4x128.size a
  hwx0_0 : ∀ i : grid0.Coords, EltTy.bits .f32 = 32 ∨ (Rect.block (s := S2x256x4x4x128) S1x256x1x4x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1x4x128.size a ≤ S2x256x4x4x128.size a
  hwx0_1 : ∀ i : grid0.Coords, EltTy.bits .f32 = 32 ∨ (Rect.block (s := S2x256x4x4x128) S1x256x1x4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1x4x128.size a ≤ S2x256x4x4x128.size a
  hwx0_2 : ∀ i : grid0.Coords, EltTy.bits .f32 = 32 ∨ (Rect.block (s := S2x256x4x4x128) S1x256x1x4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1x4x128.size a ≤ S2x256x4x4x128.size a
  hwx0_3 : ∀ i : grid0.Coords, EltTy.bits .f32 = 32 ∨ (Rect.block (s := S2x256x4x4x128) S1x256x1x4x128.size (cc0_transform_3 i) (hinb0_3 i)).WholeWords (EltTy.packing .f32)

variable [Facts₀]

def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_v6) S1x256x1x4x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x256x1x4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256x1x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x256x1x4x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x2x4096x128 : Shape := ⟨4, ![3, 2, 4096, 128]⟩
abbrev S1x2x4096x128 : Shape := ⟨4, ![1, 2, 4096, 128]⟩
abbrev S2x4096x128 : Shape := ⟨3, ![2, 4096, 128]⟩
abbrev S2x1x16x1x16x4x4x128 : Shape := ⟨8, ![2, 1, 16, 1, 16, 4, 4, 128]⟩
abbrev S2x1x1x4x16x16x4x128 : Shape := ⟨8, ![2, 1, 1, 4, 16, 16, 4, 128]⟩
abbrev S8x1024x4x32 : Shape := ⟨4, ![8, 1024, 4, 32]⟩
abbrev S8x4x1024x32 : Shape := ⟨4, ![8, 4, 1024, 32]⟩
abbrev S_ : Shape := ⟨0, ![]⟩
abbrev S8x4x1024x1024 : Shape := ⟨4, ![8, 4, 1024, 1024]⟩
abbrev S8x4x1024 : Shape := ⟨3, ![8, 4, 1024]⟩
abbrev S8x4x1024x1 : Shape := ⟨4, ![8, 4, 1024, 1]⟩
abbrev S8x1024x128 : Shape := ⟨3, ![8, 1024, 128]⟩

abbrev nBuf : Space → Nat
  | .hbm => 43
  | .vmem => 0
  | .smem => 0
  | _ => 0

abbrev bufTy : (tb : Table) → Fin (tcTables nBuf tb) → BufTy
  | .hbm, ⟨0, _⟩ => ⟨S3x2x4096x128, .f32⟩
  | .hbm, ⟨1, _⟩ => ⟨S1x2x4096x128, .f32⟩
  | .hbm, ⟨2, _⟩ => ⟨S2x4096x128, .f32⟩
  | .hbm, ⟨3, _⟩ => ⟨S1x2x4096x128, .f32⟩
  | .hbm, ⟨4, _⟩ => ⟨S2x4096x128, .f32⟩
  | .hbm, ⟨5, _⟩ => ⟨S1x2x4096x128, .f32⟩
  | .hbm, ⟨6, _⟩ => ⟨S2x4096x128, .f32⟩
  | .hbm, ⟨7, _⟩ => ⟨S2x1x16x1x16x4x4x128, .f32⟩
  | .hbm, ⟨8, _⟩ => ⟨S2x1x1x4x16x16x4x128, .f32⟩
  | .hbm, ⟨9, _⟩ => ⟨S8x1024x4x32, .f32⟩
  | .hbm, ⟨10, _⟩ => ⟨S8x4x1024x32, .f32⟩
  | .hbm, ⟨11, _⟩ => ⟨S_, .f32⟩
  | .hbm, ⟨12, _⟩ => ⟨S8x4x1024x32, .f32⟩
  | .hbm, ⟨13, _⟩ => ⟨S8x4x1024x32, .f32⟩
  | .hbm, ⟨14, _⟩ => ⟨S2x1x16x1x16x4x4x128, .f32⟩
  | .hbm, ⟨15, _⟩ => ⟨S2x1x1x4x16x16x4x128, .f32⟩
  | .hbm, ⟨16, _⟩ => ⟨S8x1024x4x32, .f32⟩
  | .hbm, ⟨17, _⟩ => ⟨S8x4x1024x32, .f32⟩
  | .hbm, ⟨18, _⟩ => ⟨S2x1x16x1x16x4x4x128, .f32⟩
  | .hbm, ⟨19, _⟩ => ⟨S2x1x1x4x16x16x4x128, .f32⟩
  | .hbm, ⟨20, _⟩ => ⟨S8x1024x4x32, .f32⟩
  | .hbm, ⟨21, _⟩ => ⟨S8x4x1024x32, .f32⟩
  | .hbm, ⟨22, _⟩ => ⟨S8x4x1024x1024, .f32⟩
  | .hbm, ⟨23, _⟩ => ⟨S_, .f32⟩
  | .hbm, ⟨24, _⟩ => ⟨S8x4x1024, .f32⟩
  | .hbm, ⟨25, _⟩ => ⟨S_, .f32⟩
  | .hbm, ⟨26, _⟩ => ⟨S8x4x1024, .f32⟩
  | .hbm, ⟨27, _⟩ => ⟨S8x4x1024, .f32⟩
  | .hbm, ⟨28, _⟩ => ⟨S8x4x1024x1, .f32⟩
  | .hbm, ⟨29, _⟩ => ⟨S8x4x1024x1024, .f32⟩
  | .hbm, ⟨30, _⟩ => ⟨S8x4x1024x1024, .f32⟩
  | .hbm, ⟨31, _⟩ => ⟨S8x4x1024x1024, .f32⟩
  | .hbm, ⟨32, _⟩ => ⟨S_, .f32⟩
  | .hbm, ⟨33, _⟩ => ⟨S8x4x1024, .f32⟩
  | .hbm, ⟨34, _⟩ => ⟨S8x4x1024x1, .f32⟩
  | .hbm, ⟨35, _⟩ => ⟨S8x4x1024x1024, .f32⟩
  | .hbm, ⟨36, _⟩ => ⟨S8x4x1024x1024, .f32⟩
  | .hbm, ⟨37, _⟩ => ⟨S8x4x1024x32, .f32⟩
  | .hbm, ⟨38, _⟩ => ⟨S8x1024x4x32, .f32⟩
  | .hbm, ⟨39, _⟩ => ⟨S8x1024x128, .f32⟩
  | .hbm, ⟨40, _⟩ => ⟨S2x1x1x4x16x16x4x128, .f32⟩
  | .hbm, ⟨41, _⟩ => ⟨S2x1x16x1x16x4x4x128, .f32⟩
  | .hbm, ⟨42, _⟩ => ⟨S2x4096x128, .f32⟩
  | _, _ => ⟨S3x2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst_0 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_2 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]

class Facts₀ : Prop where
  slices_S3x2x4096x128_S1x2x4096x128_0_0_0_0 : S3x2x4096x128.Slices ![0, 0, 0, 0] S1x2x4096x128
  shapeCasts_S1x2x4096x128_S2x4096x128 : S1x2x4096x128.ShapeCasts S2x4096x128
  slices_S3x2x4096x128_S1x2x4096x128_1_0_0_0 : S3x2x4096x128.Slices ![1, 0, 0, 0] S1x2x4096x128
  slices_S3x2x4096x128_S1x2x4096x128_2_0_0_0 : S3x2x4096x128.Slices ![2, 0, 0, 0] S1x2x4096x128
  shapeCasts_S2x4096x128_S2x1x16x1x16x4x4x128 : S2x4096x128.ShapeCasts S2x1x16x1x16x4x4x128
  transposes_S2x1x16x1x16x4x4x128_S2x1x1x4x16x16x4x128_0_1_3_5_2_4_6_7 : S2x1x16x1x16x4x4x128.Transposes [0, 1, 3, 5, 2, 4, 6, 7] S2x1x1x4x16x16x4x128
  shapeCasts_S2x1x1x4x16x16x4x128_S8x1024x4x32 : S2x1x1x4x16x16x4x128.ShapeCasts S8x1024x4x32
  transposes_S8x1024x4x32_S8x4x1024x32_0_2_1_3 : S8x1024x4x32.Transposes [0, 2, 1, 3] S8x4x1024x32
  bcast_S_S8x4x1024x32 : S_.BroadcastsInDim S8x4x1024x32 (![] : Fin 0 → Fin S8x4x1024x32.rank)
  reducesTo_S8x4x1024x1024_S8x4x1024_d3 : S8x4x1024x1024.ReducesTo [3] S8x4x1024
  h_S_ : 0 < S_.numel
  bcast_S_S8x4x1024 : S_.BroadcastsInDim S8x4x1024 (![] : Fin 0 → Fin S8x4x1024.rank)
  bcast_S8x4x1024_S8x4x1024x1_0_1_2 : S8x4x1024.BroadcastsInDim S8x4x1024x1 (![0, 1, 2] : Fin 3 → Fin S8x4x1024x1.rank)
  bcast_S8x4x1024x1_S8x4x1024x1024_0_1_2_3 : S8x4x1024x1.BroadcastsInDim S8x4x1024x1024 (![0, 1, 2, 3] : Fin 4 → Fin S8x4x1024x1024.rank)
  transposes_S8x4x1024x32_S8x1024x4x32_0_2_1_3 : S8x4x1024x32.Transposes [0, 2, 1, 3] S8x1024x4x32
  shapeCasts_S8x1024x4x32_S8x1024x128 : S8x1024x4x32.ShapeCasts S8x1024x128
  shapeCasts_S8x1024x128_S2x1x1x4x16x16x4x128 : S8x1024x128.ShapeCasts S2x1x1x4x16x16x4x128
  transposes_S2x1x1x4x16x16x4x128_S2x1x16x1x16x4x4x128_0_1_4_2_5_3_6_7 : S2x1x1x4x16x16x4x128.Transposes [0, 1, 4, 2, 5, 3, 6, 7] S2x1x16x1x16x4x4x128
  shapeCasts_S2x1x16x1x16x4x4x128_S2x4096x128 : S2x1x16x1x16x4x4x128.ShapeCasts S2x4096x128
  dot_S8x4x1024x32_S8x4x1024x32_S8x4x1024x1024_3_3_2_2_01_01_wf : DotDims.WF S8x4x1024x32 S8x4x1024x32 S8x4x1024x1024 [3] [3] [2] [2] [0, 1] [0, 1]
  dot_S8x4x1024x1024_S8x4x1024x32_S8x4x1024x32_3_2_2_3_01_01_wf : DotDims.WF S8x4x1024x1024 S8x4x1024x32 S8x4x1024x32 [3] [2] [2] [3] [0, 1] [0, 1]

variable [Facts₀]

def dot_S8x4x1024x32_S8x4x1024x32_S8x4x1024x1024_3_3_2_2_01_01 : DotDims S8x4x1024x32 S8x4x1024x32 S8x4x1024x1024 where
  lhsContracting := [3]
  rhsContracting := [3]
  lhsNonContracting := [2]
  rhsNonContracting := [2]
  lhsBatch := [0, 1]
  rhsBatch := [0, 1]
  wf := dot_S8x4x1024x32_S8x4x1024x32_S8x4x1024x1024_3_3_2_2_01_01_wf
def dot_S8x4x1024x1024_S8x4x1024x32_S8x4x1024x32_3_2_2_3_01_01 : DotDims S8x4x1024x1024 S8x4x1024x32 S8x4x1024x32 where
  lhsContracting := [3]
  rhsContracting := [2]
  lhsNonContracting := [2]
  rhsNonContracting := [3]
  lhsBatch := [0, 1]
  rhsBatch := [0, 1]
  wf := dot_S8x4x1024x1024_S8x4x1024x32_S8x4x1024x32_3_2_2_3_01_01_wf

class Facts : Prop extends Facts₀ where

variable [Facts]
-- ==== Proof.Finite.lean ====
/-
  Finiteness from the precondition. The precondition compares |x| = max x (-x) with +∞ at every entry of the
  [3, 2, 4096, 128] array and takes the conjunction of all the comparisons; it is stated to be 1. So at every entry
  max x (-x) < ⊤, and an extended real with that property is neither ⊥ (where -x = ⊤) nor ⊤: it is a real number.
-/
import proofs.«102169_j30588757082820_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The rank-0 shape has one index. -/
instance : Subsingleton S_.Idx := ⟨fun a b => funext fun d => d.elim0⟩

/-- The pattern 0x7F800000 (sign 0, exponent all ones, fraction 0) denotes +∞. -/
theorem inf_bits : Ideal.ofBits .f32 0x7F800000#32 = (⊤ : EReal) := by
  simp [Ideal.ofBits, Ideal.ieee]

/-- An extended real whose absolute value max x (-x) is below ⊤ is a real number:
    at ⊥ the negation is ⊤, at ⊤ the number itself is, and either makes the maximum ⊤. -/
theorem real_of_abs_lt_top (x : EReal) (h : max x (-x) < ⊤) : ∃ r : ℝ, x = (r : EReal) := by
  induction x using EReal.rec with
  | bot => simp at h
  | coe r => exact ⟨r, rfl⟩
  | top => simp at h

/-- A comparison word that is 1 says its proposition holds. -/
theorem ofBool_eq_one (b : Bool) : BitVec.ofBool b = 1#1 ↔ b = true := by cases b <;> decide

/-- Under the precondition every entry of the argument array is a real number. -/
theorem real_of_pre [Cert.Pre_finite_inputs.Facts] (x : FVec Ideal Cert.Pre_finite_inputs.S3x2x4096x128 .f32)
    (h : Cert.Pre_finite_inputs.fn (F := Ideal) x = fun _ => 1#1) : ∀ i, ∃ r : ℝ, x i = (r : EReal) := by
  intro i
  -- the one word of the result is 1
  have e := congrFun h ValueIdx.ix0
  dsimp only [Cert.Pre_finite_inputs.fn] at e
  -- so every comparison under the conjunction is 1
  have hi := Host.reduce_andi_all _ _ _ _ _ e i
  -- the comparison at entry i: max (x i) (-(x i)) < ⊤
  simp only [cmpf, Host.absf, broadcastInDim, constant, Ideal.hostAbsf_def, Ideal.cmpf_def, Ideal.absf_def, Ideal.ofBits_def,
    inf_bits, Ideal.cmp, ofBool_eq_one, decide_eq_true_eq] at hi
  exact real_of_abs_lt_top (x i) hi

end Cert.Finite

end
-- ==== Proof.RefLayout.lean ====
/-
  The reference's reshapes through rank 8, read at an index.

  A sequence position `l < 4096` is written `l = a * 256 + g * 16 + w * 4 + u` (`a, g < 16`, `w, u < 4`): the
  reference splits the sequence axis into these four digits (with two unit axes beside them), moves the
  window digit `w` in front, and merges (batch, window) into one axis of 8 and `(a, g, u)` into a row
  `a * 64 + g * 4 + u < 1024`; a channel `c = h * 32 + e` is cut into head and lane. The way back merges in
  the opposite order. Each reshape keeps the row-major position, so reading one at an index is a statement
  about two mixed-radix numerals, which linear arithmetic decides.
-/
import proofs.«102169_j30588757082820_2_alg».proof.Proof.Gen.ReferenceIdeal.Read
import Idealize.ShloMosaic.Lib.ValueIdx
import Idealize.ShloMosaic.Lib.Pipeline.Value

noncomputable section

namespace Cert.RefSide

open Idealize.ShloMosaic Idealize.ShloMosaic.ValueIdx Cert.ReferenceIdeal

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-! ## Splitting the sequence axis: [2, 4096, 128] → [2, 1, 16, 1, 16, 4, 4, 128] -/

/-- The (batch, position, channel) a split index stands for: position `a * 256 + g * 16 + w * 4 + u`. -/
abbrev unsplit (j : S2x1x16x1x16x4x4x128.Idx) : S2x4096x128.Idx := fun a => match a with
  | ⟨0, _⟩ => ⟨(j 0).val, (j 0).isLt⟩
  | ⟨1, _⟩ => ⟨(j 2).val * 256 + (j 4).val * 16 + (j 5).val * 4 + (j 6).val, by
      have h2 : (j 2).val < 16 := (j 2).isLt
      have h4 : (j 4).val < 16 := (j 4).isLt
      have h5 : (j 5).val < 4 := (j 5).isLt
      have h6 : (j 6).val < 4 := (j 6).isLt
      show (j 2).val * 256 + (j 4).val * 16 + (j 5).val * 4 + (j 6).val < 4096
      omega⟩
  | ⟨2, _⟩ => ⟨(j 7).val, (j 7).isLt⟩

theorem split_apply {α : Type} (y : S2x4096x128.Idx → α) (h : S2x4096x128.ShapeCasts S2x1x16x1x16x4x4x128)
    (j : S2x1x16x1x16x4x4x128.Idx) : shapeCast S2x1x16x1x16x4x4x128 y h j = y (unsplit j) := by
  refine shapeCast_apply y h j (unsplit j) ?_
  rw [Shape.rowMajor_val_three, rowMajor_val_eight]
  have h1 : (j 1).val < 1 := (j 1).isLt
  have h3 : (j 3).val < 1 := (j 3).isLt
  show ((j 0).val * 4096 + ((j 2).val * 256 + (j 4).val * 16 + (j 5).val * 4 + (j 6).val)) * 128 + (j 7).val
    = (((((((j 0).val * 1 + (j 1).val) * 16 + (j 2).val) * 1 + (j 3).val) * 16 + (j 4).val) * 4 + (j 5).val) * 4
        + (j 6).val) * 128 + (j 7).val
  omega

/-! ## Merging after the window digit moved forward: [2, 1, 1, 4, 16, 16, 4, 128] → [8, 1024, 4, 32] -/

/-- The rank-8 index a (batch·window, row, head, lane) index stands for. -/
abbrev unblock (j : S8x1024x4x32.Idx) : S2x1x1x4x16x16x4x128.Idx := fun a => match a with
  | ⟨0, _⟩ => ⟨(j 0).val / 4, by have h0 : (j 0).val < 8 := (j 0).isLt; show (j 0).val / 4 < 2; omega⟩
  | ⟨1, _⟩ => ⟨0, Nat.one_pos⟩
  | ⟨2, _⟩ => ⟨0, Nat.one_pos⟩
  | ⟨3, _⟩ => ⟨(j 0).val % 4, by show (j 0).val % 4 < 4; omega⟩
  | ⟨4, _⟩ => ⟨(j 1).val / 64, by have h1 : (j 1).val < 1024 := (j 1).isLt; show (j 1).val / 64 < 16; omega⟩
  | ⟨5, _⟩ => ⟨(j 1).val / 4 % 16, by show (j 1).val / 4 % 16 < 16; omega⟩
  | ⟨6, _⟩ => ⟨(j 1).val % 4, by show (j 1).val % 4 < 4; omega⟩
  | ⟨7, _⟩ => ⟨(j 2).val * 32 + (j 3).val, by
      have h2 : (j 2).val < 4 := (j 2).isLt
      have h3 : (j 3).val < 32 := (j 3).isLt
      show (j 2).val * 32 + (j 3).val < 128
      omega⟩

theorem block_apply {α : Type} (y : S2x1x1x4x16x16x4x128.Idx → α) (h : S2x1x1x4x16x16x4x128.ShapeCasts S8x1024x4x32)
    (j : S8x1024x4x32.Idx) : shapeCast S8x1024x4x32 y h j = y (unblock j) := by
  refine shapeCast_apply y h j (unblock j) ?_
  rw [Shape.rowMajor_val_four, rowMajor_val_eight]
  have h0 : (j 0).val < 8 := (j 0).isLt
  have h1 : (j 1).val < 1024 := (j 1).isLt
  have h2 : (j 2).val < 4 := (j 2).isLt
  have h3 : (j 3).val < 32 := (j 3).isLt
  show ((((((((j 0).val / 4) * 1 + 0) * 1 + 0) * 4 + (j 0).val % 4) * 16 + (j 1).val / 64) * 16 + (j 1).val / 4 % 16) * 4
        + (j 1).val % 4) * 128 + ((j 2).val * 32 + (j 3).val)
    = (((j 0).val * 1024 + (j 1).val) * 4 + (j 2).val) * 32 + (j 3).val
  omega

/-! ## The way back: [8, 1024, 128] → [2, 1, 1, 4, 16, 16, 4, 128] and [2, 1, 16, 1, 16, 4, 4, 128] → [2, 4096, 128] -/

/-- The (batch·window, row, channel) a rank-8 index of the blocked shape stands for. -/
abbrev reblock (j : S2x1x1x4x16x16x4x128.Idx) : S8x1024x128.Idx := fun a => match a with
  | ⟨0, _⟩ => ⟨(j 0).val * 4 + (j 3).val, by
      have h0 : (j 0).val < 2 := (j 0).isLt
      have h3 : (j 3).val < 4 := (j 3).isLt
      show (j 0).val * 4 + (j 3).val < 8
      omega⟩
  | ⟨1, _⟩ => ⟨(j 4).val * 64 + (j 5).val * 4 + (j 6).val, by
      have h4 : (j 4).val < 16 := (j 4).isLt
      have h5 : (j 5).val < 16 := (j 5).isLt
      have h6 : (j 6).val < 4 := (j 6).isLt
      show (j 4).val * 64 + (j 5).val * 4 + (j 6).val < 1024
      omega⟩
  | ⟨2, _⟩ => ⟨(j 7).val, (j 7).isLt⟩

theorem reblock_apply {α : Type} (y : S8x1024x128.Idx → α) (h : S8x1024x128.ShapeCasts S2x1x1x4x16x16x4x128)
    (j : S2x1x1x4x16x16x4x128.Idx) : shapeCast S2x1x1x4x16x16x4x128 y h j = y (reblock j) := by
  refine shapeCast_apply y h j (reblock j) ?_
  rw [Shape.rowMajor_val_three, rowMajor_val_eight]
  have h1 : (j 1).val < 1 := (j 1).isLt
  have h2 : (j 2).val < 1 := (j 2).isLt
  show (((j 0).val * 4 + (j 3).val) * 1024 + ((j 4).val * 64 + (j 5).val * 4 + (j 6).val)) * 128 + (j 7).val
    = (((((((j 0).val * 1 + (j 1).val) * 1 + (j 2).val) * 4 + (j 3).val) * 16 + (j 4).val) * 16 + (j 5).val) * 4
        + (j 6).val) * 128 + (j 7).val
  omega

/-- The split index of a (batch, position, channel): the position's four digits, unit axes between them. -/
abbrev resplit (j : S2x4096x128.Idx) : S2x1x16x1x16x4x4x128.Idx := fun a => match a with
  | ⟨0, _⟩ => ⟨(j 0).val, (j 0).isLt⟩
  | ⟨1, _⟩ => ⟨0, Nat.one_pos⟩
  | ⟨2, _⟩ => ⟨(j 1).val / 256, by have h1 : (j 1).val < 4096 := (j 1).isLt; show (j 1).val / 256 < 16; omega⟩
  | ⟨3, _⟩ => ⟨0, Nat.one_pos⟩
  | ⟨4, _⟩ => ⟨(j 1).val / 16 % 16, by show (j 1).val / 16 % 16 < 16; omega⟩
  | ⟨5, _⟩ => ⟨(j 1).val / 4 % 4, by show (j 1).val / 4 % 4 < 4; omega⟩
  | ⟨6, _⟩ => ⟨(j 1).val % 4, by show (j 1).val % 4 < 4; omega⟩
  | ⟨7, _⟩ => ⟨(j 2).val, (j 2).isLt⟩

theorem resplit_apply {α : Type} (y : S2x1x16x1x16x4x4x128.Idx → α) (h : S2x1x16x1x16x4x4x128.ShapeCasts S2x4096x128)
    (j : S2x4096x128.Idx) : shapeCast S2x4096x128 y h j = y (resplit j) := by
  refine shapeCast_apply y h j (resplit j) ?_
  rw [Shape.rowMajor_val_three, rowMajor_val_eight]
  have h0 : (j 0).val < 2 := (j 0).isLt
  have h1 : (j 1).val < 4096 := (j 1).isLt
  have h2 : (j 2).val < 128 := (j 2).isLt
  show (((((((j 0).val * 1 + 0) * 16 + (j 1).val / 256) * 1 + 0) * 16 + (j 1).val / 16 % 16) * 4 + (j 1).val / 4 % 4) * 4
        + (j 1).val % 4) * 128 + (j 2).val
    = ((j 0).val * 4096 + (j 1).val) * 128 + (j 2).val
  omega

end Cert.RefSide

end
-- ==== Proof.Spec.lean ====
/-
  Windowed multi-head attention over the extended reals, as ONE function of the argument array.

  The argument holds three parts (queries, keys, values), each [2, 4096, 128]. A sequence position
  `l = g * 16 + w * 4 + u` (`g < 256`, `w < 4`, `u < 4`) lies in window `w` at row `g * 4 + u`; a channel
  `c = h * 32 + e` lies in head `h` at lane `e`. Within one (batch, window, head) the 1024 rows attend to
  each other: a row's scores are the scaled dot products of its query with every key, its weights the
  exponentials of the scores less their maximum, and its result the weighted mean of the values.

  The mean is written in two arrangements — the weighted sum divided by the weights' total, and the sum
  of the values against weights already divided by the total — and the law that they agree when the
  scores and the values are real: then the maximum is real, the weights are positive reals, the total is
  a positive real, and dividing by it is multiplying by its reciprocal, which moves across a finite sum.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The factor both programs scale the queries by (one and the same word; its value is never needed,
    only that it is a real number). -/
abbrev scale : EReal := Ideal.ofBits .f32 0x3E3504F3#32
/-- The value both programs start a row's maximum from: minus infinity. -/
abbrev negInf : EReal := Ideal.ofBits .f32 0xFF800000#32

theorem negInf_eq : negInf = ⊥ := by
  simp [negInf, Ideal.ofBits, Ideal.ieee]

theorem scale_real : ∃ c : ℝ, scale = (c : EReal) := by
  refine ⟨(11863283 : ℝ) * ((2 : ℝ) ^ 26)⁻¹, ?_⟩
  simp [scale, Ideal.ofBits, Ideal.ieee]

/-- A finite sum of reals, taken in the extended reals, is the real sum. -/
theorem coe_sum {ι : Type} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-! ## One row of one head, over any finite set of keys -/

section Row
variable {K : Type} [Fintype K]

/-- The row's maximum score (from minus infinity). -/
def rowMax (s : K → EReal) : EReal := (Finset.univ : Finset K).fold max negInf s
/-- A key's weight: the exponential of its score less the maximum. -/
def wt (s : K → EReal) (j : K) : EReal := Ideal.exp (s j - rowMax s)
/-- The weights' total. -/
def den (s : K → EReal) : EReal := ∑ j, wt s j
/-- The weighted sum of the values, divided by the total. -/
def attnK (s v : K → EReal) : EReal := Ideal.div (∑ j, wt s j * v j) (den s)
/-- The sum of the values against the weights each divided by the total. -/
def attnR (s v : K → EReal) : EReal := ∑ j, Ideal.div (wt s j) (den s) * v j

/-- Starting the maximum from minus infinity a second time changes nothing. -/
theorem max_negInf_rowMax (s : K → EReal) : max negInf (rowMax s) = rowMax s :=
  max_eq_right ((Finset.le_fold_max negInf).2 (Or.inl le_rfl))

/-- The maximum of real scores over a nonempty set of keys is real. -/
theorem rowMax_real [Nonempty K] (s : K → EReal) (σ : K → ℝ) (hσ : ∀ j, s j = (σ j : EReal)) :
    ∃ μ : ℝ, rowMax s = (μ : EReal) := by
  obtain ⟨j0⟩ := ‹Nonempty K›
  have hbot : rowMax s ≠ ⊥ := by
    have h : s j0 ≤ rowMax s := (Finset.le_fold_max (s j0)).2 (Or.inr ⟨j0, Finset.mem_univ _, le_rfl⟩)
    rw [hσ j0] at h
    exact ne_of_gt (lt_of_lt_of_le (EReal.bot_lt_coe _) h)
  have htop : rowMax s ≠ ⊤ := by
    refine ne_of_lt ((Finset.fold_max_lt ⊤).2 ⟨?_, fun j _ => ?_⟩)
    · rw [negInf_eq]; exact bot_lt_top
    · rw [hσ j]; exact EReal.coe_lt_top _
  exact ⟨(rowMax s).toReal, (EReal.coe_toReal htop hbot).symm⟩

/-- THE LAW: with real scores and real values the two arrangements of the weighted mean agree. -/
theorem attnK_eq_attnR [Nonempty K] (s v : K → EReal) (hs : ∀ j, ∃ r : ℝ, s j = (r : EReal))
    (hv : ∀ j, ∃ r : ℝ, v j = (r : EReal)) : attnK s v = attnR s v := by
  classical
  choose σ hσ using hs
  choose ν hν using hv
  obtain ⟨μ, hμ⟩ := rowMax_real s σ hσ
  have hw : ∀ j, wt s j = ((Real.exp (σ j - μ) : ℝ) : EReal) := fun j => by
    unfold wt; rw [hσ j, hμ, ← EReal.coe_sub]; rfl
  have hden : den s = ((∑ j, Real.exp (σ j - μ) : ℝ) : EReal) := by
    unfold den; rw [← coe_sum]; exact Finset.sum_congr rfl fun j _ => hw j
  have hpos : (0 : ℝ) < ∑ j, Real.exp (σ j - μ) :=
    Finset.sum_pos (fun j _ => Real.exp_pos _) Finset.univ_nonempty
  unfold attnK attnR
  rw [hden]
  simp only [Ideal.div_coe hpos.ne', hw, hν, ← EReal.coe_mul]
  rw [coe_sum, coe_sum, ← EReal.coe_mul, Finset.sum_mul]
  exact congrArg _ (Finset.sum_congr rfl fun j _ => by ring)

end Row

/-! ## The whole array -/

/-- The argument array's shape and the result's. -/
abbrev Arg : Shape := ⟨4, ![3, 2, 4096, 128]⟩
abbrev Out : Shape := ⟨3, ![2, 4096, 128]⟩

/-- Row `r` of window `w` is sequence position `(r / 4) * 16 + w * 4 + r % 4`. -/
def rowOf (w : Fin 4) (r : Fin 1024) : Fin 4096 := ⟨(r.val / 4) * 16 + w.val * 4 + r.val % 4, by omega⟩
/-- Lane `e` of head `h` is channel `h * 32 + e`. -/
def chan (h : Fin 4) (e : Fin 32) : Fin 128 := ⟨h.val * 32 + e.val, by omega⟩

/-- Part `p` (0 queries, 1 keys, 2 values) of the argument, seen by (batch, window, head) as 1024 rows of 32 lanes. -/
def slab (A : Arg.Idx → EReal) (p : Fin 3) (b : Fin 2) (w : Fin 4) (h : Fin 4) (r : Fin 1024) (e : Fin 32) : EReal :=
  A (ix4 p b (rowOf w r) (chan h e))

/-- Row `r`'s score against key row `k`: the scaled query's dot product with the key. -/
def score (A : Arg.Idx → EReal) (b : Fin 2) (w : Fin 4) (h : Fin 4) (r k : Fin 1024) : EReal :=
  ∑ e : Fin 32, (slab A 0 b w h r e * scale) * slab A 1 b w h k e

/-- One entry of one head's result, in each arrangement. -/
def headK (A : Arg.Idx → EReal) (b : Fin 2) (w : Fin 4) (h : Fin 4) (r : Fin 1024) (d : Fin 32) : EReal :=
  attnK (score A b w h r) (fun k => slab A 2 b w h k d)
def headR (A : Arg.Idx → EReal) (b : Fin 2) (w : Fin 4) (h : Fin 4) (r : Fin 1024) (d : Fin 32) : EReal :=
  attnR (score A b w h r) (fun k => slab A 2 b w h k d)

/-- A sequence position's window and its row there; a channel's head and its lane there. -/
def winOf (l : Fin 4096) : Fin 4 := ⟨(l.val / 4) % 4, by omega⟩
def rowIn (l : Fin 4096) : Fin 1024 := ⟨(l.val / 16) * 4 + l.val % 4, by omega⟩
def headOf (c : Fin 128) : Fin 4 := ⟨c.val / 32, by omega⟩
def laneOf (c : Fin 128) : Fin 32 := ⟨c.val % 32, by omega⟩

/-- A window's 1024 rows are laid out [256, 4]: row `r` sits at (`r / 4`, `r % 4`), and (`g`, `u`) is row `g * 4 + u`. -/
def rowHi (r : Fin 1024) : Fin 256 := ⟨r.val / 4, by omega⟩
def rowLo (r : Fin 1024) : Fin 4 := ⟨r.val % 4, by omega⟩
def rowJoin (g : Fin 256) (u : Fin 4) : Fin 1024 := ⟨g.val * 4 + u.val, by omega⟩

/-- The shape of one window's block of a part: [1, 256, 1, 4, 128]. -/
abbrev Blk : Shape := ⟨5, ![1, 256, 1, 4, 128]⟩

/-- One entry of a window's result from the window's three blocks (queries, keys, values): the entry at row
    (`g`, `u`) and channel `c` is, within `c`'s head, the weighted mean over the 1024 key rows of the values'
    channel `c`, the scores being the scaled dot products over the head's 32 lanes. -/
def blockOut (x0 x1 x2 : Blk.Idx → EReal) (g : Fin 256) (u : Fin 4) (c : Fin 128) : EReal :=
  attnK (fun j : Fin 1024 => ∑ e : Fin 32,
      (x0 (ix5 0 g 0 u (chan (headOf c) e)) * scale) * x1 (ix5 0 (rowHi j) 0 (rowLo j) (chan (headOf c) e)))
    (fun j : Fin 1024 => x2 (ix5 0 (rowHi j) 0 (rowLo j) c))

/-- The result array, in each arrangement. -/
def GK (A : Arg.Idx → EReal) : Out.Idx → EReal := fun i =>
  headK A (i 0) (winOf (i 1)) (headOf (i 2)) (rowIn (i 1)) (laneOf (i 2))
def GR (A : Arg.Idx → EReal) : Out.Idx → EReal := fun i =>
  headR A (i 0) (winOf (i 1)) (headOf (i 2)) (rowIn (i 1)) (laneOf (i 2))

/-- Scores of a real argument are real. -/
theorem score_real (A : Arg.Idx → EReal) (hA : ∀ i, ∃ r : ℝ, A i = (r : EReal)) (b : Fin 2) (w : Fin 4) (h : Fin 4)
    (r k : Fin 1024) : ∃ x : ℝ, score A b w h r k = (x : EReal) := by
  choose α hα using hA
  obtain ⟨c, hc⟩ := scale_real
  refine ⟨∑ e : Fin 32, (α (ix4 0 b (rowOf w r) (chan h e)) * c) * α (ix4 1 b (rowOf w k) (chan h e)), ?_⟩
  unfold score slab
  rw [← coe_sum]
  exact Finset.sum_congr rfl fun e _ => by rw [hα, hα, hc, ← EReal.coe_mul, ← EReal.coe_mul]

/-- On a real argument the two arrangements are one array. -/
theorem GK_eq_GR (A : Arg.Idx → EReal) (hA : ∀ i, ∃ r : ℝ, A i = (r : EReal)) : GK A = GR A := by
  funext i
  exact attnK_eq_attnR _ _ (fun k => score_real A hA _ _ _ _ k) (fun k => hA _)

end Cert.Attn

end
-- ==== Proof.RefPart.lean ====
/-
  The reference's partition and its merge, read at an index.

  The partition sends each part of the argument (queries, keys, values) to an array indexed by
  (batch·window, head, row, lane): entry `(n, h, r, e)` is the argument at batch `n / 4`, sequence position
  `(r / 4) * 16 + (n % 4) * 4 + r % 4` — row `r` of window `n % 4` — and channel `h * 32 + e`. The merge is its
  inverse on the result: entry `(b, l, c)` is the per-block result at `(b * 4 + window of l, head of c, row of l,
  lane of c)`. Both are compositions of reshapes and transposes, each read at an index; what is left is
  arithmetic on the digits of a position, stated first over the natural numbers.
-/
import proofs.«102169_j30588757082820_2_alg».proof.Proof.RefLayout
import proofs.«102169_j30588757082820_2_alg».proof.Proof.Spec

noncomputable section

namespace Cert.RefSide

open Idealize.ShloMosaic Idealize.ShloMosaic.ValueIdx Cert.ReferenceIdeal Cert.ReferenceIdeal.Read Cert.Attn

/-! ## Digits -/

/-- A row's three digits `(r / 64, r / 4 % 16, r % 4)` with a window digit between the last two spell the
    position `(r / 4) * 16 + w * 4 + r % 4`. -/
theorem row_digits (r w : Nat) : r / 64 * 256 + r / 4 % 16 * 16 + w * 4 + r % 4 = r / 4 * 16 + w * 4 + r % 4 := by
  omega

/-- A position's digits without the window digit spell its row `(l / 16) * 4 + l % 4`. -/
theorem pos_digits (l : Nat) : l / 256 * 64 + l / 16 % 16 * 4 + l % 4 = l / 16 * 4 + l % 4 := by
  omega

/-- Reading (batch, position, channel) back off a row-major position in [2, 4096, 128]. -/
theorem flat3_batch (b L C : Nat) (hb : b < 2) (hL : L < 4096) (hC : C < 128) :
    ((b * 4096 + L) * 128 + C) / 524288 % 2 = b := by omega
theorem flat3_pos (b L C : Nat) (hL : L < 4096) (hC : C < 128) :
    ((b * 4096 + L) * 128 + C) / 128 % 4096 = L := by omega
theorem flat3_chan (b L C : Nat) (hC : C < 128) : ((b * 4096 + L) * 128 + C) % 128 = C := by omega

/-- Reading (batch·window, row, head, lane) back off a row-major position in [8, 1024, 128]. -/
theorem flat8_block (N R C : Nat) (hR : R < 1024) (hC : C < 128) : ((N * 1024 + R) * 128 + C) / 131072 = N := by
  omega
theorem flat8_row (N R C : Nat) (hR : R < 1024) (hC : C < 128) : ((N * 1024 + R) * 128 + C) / 128 % 1024 = R := by
  omega
theorem flat8_head (N R C : Nat) (hC : C < 128) : ((N * 1024 + R) * 128 + C) / 32 % 4 = C / 32 := by omega
theorem flat8_lane (N R C : Nat) : ((N * 1024 + R) * 128 + C) % 32 = C % 32 := by omega

/-! ## The merged (batch, window) coordinate -/

/-- The batch and the window of a merged coordinate `n = b * 4 + w`, and the merged coordinate of a pair. -/
def batchOf (n : Fin 8) : Fin 2 := ⟨n.val / 4, by omega⟩
def windowOf (n : Fin 8) : Fin 4 := ⟨n.val % 4, by omega⟩
def blockOf (b : Fin 2) (w : Fin 4) : Fin 8 := ⟨b.val * 4 + w.val, by omega⟩

theorem batchOf_blockOf (b : Fin 2) (w : Fin 4) : batchOf (blockOf b w) = b :=
  Fin.ext (by show (b.val * 4 + w.val) / 4 = b.val; omega)
theorem windowOf_blockOf (b : Fin 2) (w : Fin 4) : windowOf (blockOf b w) = w :=
  Fin.ext (by show (b.val * 4 + w.val) % 4 = w.val; omega)

/-! ## The partition -/

/-- Entry `(n, h, r, e)` of a partitioned part comes from (batch, position, channel)
    `(n / 4, row r of window n % 4, h * 32 + e)` of that part (its leading unit axis at 0). -/
theorem part_index (n : Fin 8) (h : Fin 4) (r : Fin 1024) (e : Fin 32) :
    idx_main_v1 (unsplit (idx_main_v7 (unblock (idx_main_v9 (ix4 n h r e)))))
      = ix4 (0 : Fin 1) (batchOf n) (rowOf (windowOf n) r) (chan h e) := by
  have hn : n.val < 8 := n.isLt
  have hh : h.val < 4 := h.isLt
  have hr : r.val < 1024 := r.isLt
  have he : e.val < 32 := e.isLt
  refine funext fun a => Fin.ext ?_
  match a with
  | ⟨0, _⟩ => rfl
  | ⟨1, _⟩ =>
    dsimp only [idx_main_v1, unsplit, idx_main_v7, unblock, idx_main_v9, ix4, rowOf, chan, batchOf, windowOf]
    rw [row_digits]
    exact flat3_batch _ _ _ (by omega) (by omega) (by omega)
  | ⟨2, _⟩ =>
    dsimp only [idx_main_v1, unsplit, idx_main_v7, unblock, idx_main_v9, ix4, rowOf, chan, batchOf, windowOf]
    rw [row_digits]
    exact flat3_pos _ _ _ (by omega) (by omega)
  | ⟨3, _⟩ =>
    dsimp only [idx_main_v1, unsplit, idx_main_v7, unblock, idx_main_v9, ix4, rowOf, chan, batchOf, windowOf]
    exact flat3_chan _ _ _ (by omega)

/-- The three slices take part 0, 1, 2 of the argument. -/
theorem slice0_index (b : Fin 2) (l : Fin 4096) (c : Fin 128) :
    idx_main_v0 (ix4 (0 : Fin 1) b l c) = ix4 (0 : Fin 3) b l c :=
  funext fun a => Fin.ext (by match a with | ⟨0, _⟩ => rfl | ⟨1, _⟩ => rfl | ⟨2, _⟩ => rfl | ⟨3, _⟩ => rfl)
theorem slice1_index (b : Fin 2) (l : Fin 4096) (c : Fin 128) :
    idx_main_v2 (ix4 (0 : Fin 1) b l c) = ix4 (1 : Fin 3) b l c :=
  funext fun a => Fin.ext (by match a with | ⟨0, _⟩ => rfl | ⟨1, _⟩ => rfl | ⟨2, _⟩ => rfl | ⟨3, _⟩ => rfl)
theorem slice2_index (b : Fin 2) (l : Fin 4096) (c : Fin 128) :
    idx_main_v4 (ix4 (0 : Fin 1) b l c) = ix4 (2 : Fin 3) b l c :=
  funext fun a => Fin.ext (by match a with | ⟨0, _⟩ => rfl | ⟨1, _⟩ => rfl | ⟨2, _⟩ => rfl | ⟨3, _⟩ => rfl)

/-- The partitioned queries. -/
theorem queries_apply (x0 : (⟨S3x2x4096x128, .f32⟩ : BufTy).Contents (Elt Ideal)) (n : Fin 8) (h : Fin 4)
    (r : Fin 1024) (e : Fin 32) :
    val_main_v9 (F := Ideal) x0 (ix4 n h r e) = slab x0 0 (batchOf n) (windowOf n) h r e := by
  rw [val_main_v9_apply]
  unfold val_main_v8
  rw [block_apply, val_main_v7_apply]
  unfold val_main_v6
  rw [split_apply, val_main_v1_apply, part_index, val_main_v0_apply, slice0_index]
  rfl

/-- The partitioned keys. -/
theorem keys_apply (x0 : (⟨S3x2x4096x128, .f32⟩ : BufTy).Contents (Elt Ideal)) (n : Fin 8) (h : Fin 4)
    (r : Fin 1024) (e : Fin 32) :
    val_main_v15 (F := Ideal) x0 (ix4 n h r e) = slab x0 1 (batchOf n) (windowOf n) h r e := by
  rw [val_main_v15_apply]
  unfold val_main_v14
  rw [block_apply, val_main_v13_apply]
  unfold val_main_v12
  rw [split_apply, val_main_v3_apply]
  refine (congrArg (val_main_v2 (F := Ideal) x0) (part_index n h r e)).trans ?_
  rw [val_main_v2_apply, slice1_index]
  rfl

/-- The partitioned values. -/
theorem values_apply (x0 : (⟨S3x2x4096x128, .f32⟩ : BufTy).Contents (Elt Ideal)) (n : Fin 8) (h : Fin 4)
    (r : Fin 1024) (e : Fin 32) :
    val_main_v19 (F := Ideal) x0 (ix4 n h r e) = slab x0 2 (batchOf n) (windowOf n) h r e := by
  rw [val_main_v19_apply]
  unfold val_main_v18
  rw [block_apply, val_main_v17_apply]
  unfold val_main_v16
  rw [split_apply, val_main_v5_apply]
  refine (congrArg (val_main_v4 (F := Ideal) x0) (part_index n h r e)).trans ?_
  rw [val_main_v4_apply, slice2_index]
  rfl

/-! ## The merge -/

/-- Entry `(b, l, c)` of the result comes from block `b * 4 + window of l`, head `c / 32`, row
    `(l / 16) * 4 + l % 4`, lane `c % 32`. -/
theorem merge_index (b : Fin 2) (l : Fin 4096) (c : Fin 128) :
    idx_main_v33 (idx_main_v34 (reblock (idx_main_v36 (resplit (ix3 b l c)))))
      = ix4 (blockOf b (winOf l)) (headOf c) (rowIn l) (laneOf c) := by
  have hb : b.val < 2 := b.isLt
  have hl : l.val < 4096 := l.isLt
  have hc : c.val < 128 := c.isLt
  refine funext fun a => Fin.ext ?_
  match a with
  | ⟨0, _⟩ =>
    dsimp only [idx_main_v33, idx_main_v34, reblock, idx_main_v36, resplit, ix3, ix4, blockOf, winOf, headOf, rowIn, laneOf]
    exact flat8_block _ _ _ (by omega) (by omega)
  | ⟨1, _⟩ =>
    dsimp only [idx_main_v33, idx_main_v34, reblock, idx_main_v36, resplit, ix3, ix4, blockOf, winOf, headOf, rowIn, laneOf]
    exact flat8_head _ _ _ (by omega)
  | ⟨2, _⟩ =>
    dsimp only [idx_main_v33, idx_main_v34, reblock, idx_main_v36, resplit, ix3, ix4, blockOf, winOf, headOf, rowIn, laneOf]
    rw [pos_digits]
    exact flat8_row _ _ _ (by omega) (by omega)
  | ⟨3, _⟩ =>
    dsimp only [idx_main_v33, idx_main_v34, reblock, idx_main_v36, resplit, ix3, ix4, blockOf, winOf, headOf, rowIn, laneOf]
    exact flat8_lane _ _ _

/-- The result at `(b, l, c)` is the per-block result at that entry. -/
theorem merge_apply (x0 : (⟨S3x2x4096x128, .f32⟩ : BufTy).Contents (Elt Ideal)) (b : Fin 2) (l : Fin 4096)
    (c : Fin 128) :
    val_main_v37 (F := Ideal) x0 (ix3 b l c)
      = val_main_v32 (F := Ideal) x0 (ix4 (blockOf b (winOf l)) (headOf c) (rowIn l) (laneOf c)) := by
  unfold val_main_v37
  rw [resplit_apply, val_main_v36_apply]
  unfold val_main_v35
  rw [reblock_apply, val_main_v34_apply, val_main_v33_apply, merge_index]

end Cert.RefSide

end
-- ==== Proof.RefCore.lean ====
/-
  The reference's attention within one (batch·window, head) block, read at an index.

  Fix a block `n` (batch `n / 4`, window `n % 4`), a head `h` and a query row `r`, and write `s k` for the row's
  score against key row `k`: the scaled query's dot product with the key. The reference takes the row's
  maximum from minus infinity (and once more against minus infinity, which changes nothing), exponentiates
  the scores less the maximum, sums these weights from zero, divides each weight by the total, and sums the
  values against the divided weights: the second arrangement of the weighted mean.
-/
import proofs.«102169_j30588757082820_2_alg».proof.Proof.RefPart
import Idealize.ShloMosaic.PureOps.Ideal.Laws

noncomputable section

namespace Cert.RefSide

open Idealize.ShloMosaic Idealize.ShloMosaic.ValueIdx Cert.ReferenceIdeal Cert.ReferenceIdeal.Read Cert.Attn

variable (x0 : (⟨S3x2x4096x128, .f32⟩ : BufTy).Contents (Elt Ideal))

/-- The queries times the scale. -/
theorem scaled_apply (n : Fin 8) (h : Fin 4) (r : Fin 1024) (e : Fin 32) :
    val_main_v11 (F := Ideal) x0 (ix4 n h r e) = slab x0 0 (batchOf n) (windowOf n) h r e * scale := by
  rw [val_main_v11_apply, queries_apply, val_main_v10_apply, val_main_cst_apply, Ideal.mulf_def, Ideal.ofBits_def]

/-- A score: the scaled query's dot product with a key. -/
theorem scores_apply (n : Fin 8) (h : Fin 4) (r k : Fin 1024) :
    val_main_v20 (F := Ideal) x0 (ix4 n h r k) = score x0 (batchOf n) (windowOf n) h r k := by
  rw [val_main_v20_apply]
  unfold score
  refine Finset.sum_congr rfl fun e _ => ?_
  have el : lidx_main_v20 (ix4 n h r k) e = ix4 n h r e :=
    funext fun a => Fin.ext (by match a with | ⟨0, _⟩ => rfl | ⟨1, _⟩ => rfl | ⟨2, _⟩ => rfl | ⟨3, _⟩ => rfl)
  have er : ridx_main_v20 (ix4 n h r k) e = ix4 n h k e :=
    funext fun a => Fin.ext (by match a with | ⟨0, _⟩ => rfl | ⟨1, _⟩ => rfl | ⟨2, _⟩ => rfl | ⟨3, _⟩ => rfl)
  rw [el, er, scaled_apply, keys_apply]

/-- The row's maximum: the reduction over the key axis from minus infinity is the fold of `max` over the keys. -/
theorem rowmax_apply (n : Fin 8) (h : Fin 4) (r : Fin 1024) :
    val_main_v21 (F := Ideal) x0 (ix3 n h r) = rowMax (score x0 (batchOf n) (windowOf n) h r) := by
  have hR : S8x4x1024x1024.Reduces [3] S8x4x1024 := by decide
  unfold val_main_v21
  rw [Host.reduce_eq_fold_single FloatOps.maximumf _ _ Facts₀.reducesTo_S8x4x1024x1024_S8x4x1024_d3 hR Facts₀.h_S_]
  show (Finset.univ : Finset (Fin 1024)).fold max negInf
      (fun k : Fin 1024 => val_main_v20 (F := Ideal) x0 (hR.lift (ix3 n h r) k)) = _
  unfold rowMax
  refine Finset.fold_congr fun (k : Fin 1024) _ => ?_
  have ek : hR.lift (ix3 n h r) k = ix4 n h r k :=
    funext fun a => Fin.ext (by match a with | ⟨0, _⟩ => rfl | ⟨1, _⟩ => rfl | ⟨2, _⟩ => rfl | ⟨3, _⟩ => rfl)
  exact (congrArg (val_main_v20 (F := Ideal) x0) ek).trans (scores_apply x0 n h r k)

/-- Taking the maximum against minus infinity once more changes nothing. -/
theorem rowmax2_apply (n : Fin 8) (h : Fin 4) (r : Fin 1024) :
    val_main_v23 (F := Ideal) x0 (ix3 n h r) = rowMax (score x0 (batchOf n) (windowOf n) h r) := by
  rw [val_main_v23_apply, val_main_v22_apply, val_main_cst_1_apply, rowmax_apply, Ideal.maximumf_def, Ideal.ofBits_def]
  exact max_negInf_rowMax _

/-- The maximum, spread back along the key axis. -/
theorem rowmax_spread_apply (n : Fin 8) (h : Fin 4) (r k : Fin 1024) :
    val_main_v25 (F := Ideal) x0 (ix4 n h r k) = rowMax (score x0 (batchOf n) (windowOf n) h r) := by
  rw [val_main_v25_apply, val_main_v24_apply]
  have ei : idx_main_v24 (idx_main_v25 (ix4 n h r k)) = ix3 n h r :=
    funext fun a => Fin.ext (by match a with | ⟨0, _⟩ => rfl | ⟨1, _⟩ => rfl | ⟨2, _⟩ => rfl)
  rw [ei, rowmax2_apply]

/-- A weight: the exponential of the score less the maximum. -/
theorem weights_apply (n : Fin 8) (h : Fin 4) (r k : Fin 1024) :
    val_main_v27 (F := Ideal) x0 (ix4 n h r k) = wt (score x0 (batchOf n) (windowOf n) h r) k := by
  rw [val_main_v27_apply, val_main_v26_apply, scores_apply, rowmax_spread_apply, Ideal.hostUnary_exp_def,
    Ideal.subf_def]
  rfl

/-- The weights' total: the sum over the key axis from zero. -/
theorem total_apply (n : Fin 8) (h : Fin 4) (r : Fin 1024) :
    val_main_v28 (F := Ideal) x0 (ix3 n h r) = den (score x0 (batchOf n) (windowOf n) h r) := by
  rw [val_main_v28_apply, val_main_cst_2_apply, Ideal.ofBits_def, Ideal.ofBits_zero_f32, zero_add]
  unfold den
  refine Finset.sum_congr rfl fun k _ => ?_
  have ek : idx_main_v28 (ix3 n h r) k = ix4 n h r k :=
    funext fun a => Fin.ext (by match a with | ⟨0, _⟩ => rfl | ⟨1, _⟩ => rfl | ⟨2, _⟩ => rfl | ⟨3, _⟩ => rfl)
  rw [ek, weights_apply]

/-- A weight divided by the total. -/
theorem shares_apply (n : Fin 8) (h : Fin 4) (r k : Fin 1024) :
    val_main_v31 (F := Ideal) x0 (ix4 n h r k)
      = Ideal.div (wt (score x0 (batchOf n) (windowOf n) h r) k) (den (score x0 (batchOf n) (windowOf n) h r)) := by
  rw [val_main_v31_apply, weights_apply, val_main_v30_apply, val_main_v29_apply]
  have ei : idx_main_v29 (idx_main_v30 (ix4 n h r k)) = ix3 n h r :=
    funext fun a => Fin.ext (by match a with | ⟨0, _⟩ => rfl | ⟨1, _⟩ => rfl | ⟨2, _⟩ => rfl)
  rw [ei, total_apply, Ideal.hostDivf_def]

/-- The block's result: the values summed against the divided weights. -/
theorem core_apply (n : Fin 8) (h : Fin 4) (r : Fin 1024) (d : Fin 32) :
    val_main_v32 (F := Ideal) x0 (ix4 n h r d) = headR x0 (batchOf n) (windowOf n) h r d := by
  rw [val_main_v32_apply]
  unfold headR attnR
  refine Finset.sum_congr rfl fun k _ => ?_
  have el : lidx_main_v32 (ix4 n h r d) k = ix4 n h r k :=
    funext fun a => Fin.ext (by match a with | ⟨0, _⟩ => rfl | ⟨1, _⟩ => rfl | ⟨2, _⟩ => rfl | ⟨3, _⟩ => rfl)
  have er : ridx_main_v32 (ix4 n h r d) k = ix4 n h k d :=
    funext fun a => Fin.ext (by match a with | ⟨0, _⟩ => rfl | ⟨1, _⟩ => rfl | ⟨2, _⟩ => rfl | ⟨3, _⟩ => rfl)
  rw [el, er, shares_apply, values_apply]

end Cert.RefSide

end
-- ==== Proof.RefSide.lean ====
/-
  The reference computes the second arrangement of windowed attention.

  Entry `(b, l, c)` of the reference's result is the per-block result at block `b * 4 + window of l`, head
  `c / 32`, row `(l / 16) * 4 + l % 4`, lane `c % 32`; that block's batch is `b` and its window is the window
  of `l`; and the per-block result there is the values of that (batch, window, head) summed against the
  row's weights each divided by their total.
-/
import proofs.«102169_j30588757082820_2_alg».proof.Proof.RefCore

noncomputable section

namespace Cert.RefSide

open Idealize.ShloMosaic Idealize.ShloMosaic.ValueIdx Cert.ReferenceIdeal Cert.ReferenceIdeal.Read Cert.Attn

/-- The reference's result, as one function of the argument, is the specification's second arrangement. -/
theorem ref_eq (x0 : FVec Ideal Cert.ReferenceIdeal.S3x2x4096x128 .f32) :
    Cert.ReferenceIdeal.Read.val_main_v37 (F := Ideal) x0 = Cert.Attn.GR x0 := by
  funext i
  obtain ⟨b, l, c, rfl⟩ : ∃ (b : Fin 2) (l : Fin 4096) (c : Fin 128), i = ix3 b l c := ⟨i 0, i 1, i 2, eq_ix3 i⟩
  rw [merge_apply, core_apply, batchOf_blockOf, windowOf_blockOf]
  rfl

end Cert.RefSide

end
-- ==== Proof.KLayout.lean ====
/-
  The layout operations around the call, read at an index.

  Before the call each part of the argument (a slice along the leading axis, its unit axis dropped) is
  re-laid from [2, 4096, 128] to [2, 256, 4, 4, 128]: sequence position `g * 16 + w * 4 + u` becomes
  (`g`, `w`, `u`). After the call the result is re-laid back. Both are reshapes, so an entry keeps its
  row-major position; no data moves.
-/
import Idealize.ShloMosaic.Lib.Pipeline.Value
import Idealize.ShloMosaic.Lib.ValueIdx
import Idealize.ShloMosaic.Lib.ValueLayout

namespace Cert.KLayout

open Idealize.ShloMosaic Idealize.ShloMosaic.ValueIdx

variable {α : Type}

abbrev SArg : Shape := ⟨4, ![3, 2, 4096, 128]⟩
abbrev SPart1 : Shape := ⟨4, ![1, 2, 4096, 128]⟩
abbrev SPart : Shape := ⟨3, ![2, 4096, 128]⟩
abbrev SWin : Shape := ⟨5, ![2, 256, 4, 4, 128]⟩

/-- The sequence position of (`g`, `w`, `u`). -/
def seqPos (g : Fin 256) (w : Fin 4) (u : Fin 4) : Fin 4096 := ⟨g.val * 16 + w.val * 4 + u.val, by omega⟩

/-- Part `o` of the argument, re-laid, at (`b`, `g`, `w`, `u`, `ch`) is the argument at
    (`o`, `b`, `g * 16 + w * 4 + u`, `ch`). -/
theorem part_apply (A : SArg.Idx → α) (o : Nat) (ho : o < 3) (hs : SArg.Slices ![o, 0, 0, 0] SPart1)
    (h1 : SPart1.ShapeCasts SPart) (h2 : SPart.ShapeCasts SWin)
    (b : Fin 2) (g : Fin 256) (w : Fin 4) (u : Fin 4) (ch : Fin 128) :
    shapeCast SWin (shapeCast SPart (extractStridedSlice SPart1 ![o, 0, 0, 0] A hs) h1) h2 (ix5 b g w u ch)
      = A (ix4 ⟨o, ho⟩ b (seqPos g w u) ch) := by
  rw [shapeCast_apply _ h2 (ix5 b g w u ch) (ix3 b (seqPos g w u) ch) (by
    rw [Shape.rowMajor_val_three, Shape.rowMajor_val_five]
    show (b.val * 4096 + (g.val * 16 + w.val * 4 + u.val)) * 128 + ch.val
      = (((b.val * 256 + g.val) * 4 + w.val) * 4 + u.val) * 128 + ch.val
    omega)]
  rw [shapeCast_1abc_abc_apply]
  exact extractStridedSlice_apply _ A hs _ _ fun a => match a with
    | ⟨0, _⟩ => by show o = o + 0; omega
    | ⟨1, _⟩ => by show b.val = 0 + b.val; omega
    | ⟨2, _⟩ => by show g.val * 16 + w.val * 4 + u.val = 0 + (g.val * 16 + w.val * 4 + u.val); omega
    | ⟨3, _⟩ => by show ch.val = 0 + ch.val; omega

/-- The result re-laid back: position `l` reads (`l / 16`, `(l / 4) % 4`, `l % 4`). -/
theorem merge_apply (X : SWin.Idx → α) (h : SWin.ShapeCasts SPart) (b : Fin 2) (l : Fin 4096) (ch : Fin 128) :
    shapeCast SPart X h (ix3 b l ch)
      = X (ix5 b ⟨l.val / 16, by omega⟩ ⟨(l.val / 4) % 4, by omega⟩ ⟨l.val % 4, by omega⟩ ch) :=
  shapeCast_apply X h _ _ (by
    rw [Shape.rowMajor_val_five, Shape.rowMajor_val_three]
    show (((b.val * 256 + l.val / 16) * 4 + (l.val / 4) % 4) * 4 + l.val % 4) * 128 + ch.val
      = (b.val * 4096 + l.val) * 128 + ch.val
    omega)

end Cert.KLayout
-- ==== Proof.KIn.lean ====
/-
  What the call reads. Before the call each of the three parts of the argument is re-laid to
  [2, 256, 4, 4, 128]; the grid has one point per (batch, window), and at a point each of the four
  windows (queries, keys, values, result) holds the [1, 256, 1, 4, 128] block of its array at that batch and
  window. So an entry (g, u, ch) of an input block at point `t` is the argument's entry at part `p`, batch
  `bOf t`, sequence position `g * 16 + wOf t * 4 + u`, channel `ch`.
-/
import proofs.«102169_j30588757082820_2_alg».proof.Proof.Gen.KernelIdeal.Frame
import proofs.«102169_j30588757082820_2_alg».proof.Proof.Spec
import proofs.«102169_j30588757082820_2_alg».proof.Proof.KLayout
import Idealize.ShloMosaic.Lib.Pipeline.Value
import Idealize.ShloMosaic.Lib.StableHlo.Run
import Idealize.ShloMosaic.Lib.ValueIdx

set_option maxRecDepth 16384

noncomputable section

namespace Cert.KArr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Attn (chan headOf laneOf rowHi rowLo rowJoin rowOf scale)
open Cert.KLayout (seqPos)

variable (m : (ℓ : Loc nD τ sig) → Buf (Elt Ideal) ℓ) (ρ : Dev nD → PrngReg)

/-! ## What the region finds in its three input arrays -/

theorem V6_eq (c : Dev nD) : (V m c main_v6 : S2x256x4x4x128.Idx → EReal)
    = shapeCast S2x256x4x4x128 (shapeCast S2x4096x128 (extractStridedSlice S1x2x4096x128 ![0, 0, 0, 0]
        (m ((c : Thread nD τ).loc main_arg0)) Facts₀.slices_S3x2x4096x128_S1x2x4096x128_0_0_0_0)
        Facts₀.shapeCasts_S1x2x4096x128_S2x4096x128) Facts₀.shapeCasts_S2x4096x128_S2x256x4x4x128 := by
  show StableHlo.after hostOps0 (fun b => m (c, b)) (Proc.devRef .tc main_v6) = _
  after_results; rfl
theorem V7_eq (c : Dev nD) : (V m c main_v7 : S2x256x4x4x128.Idx → EReal)
    = shapeCast S2x256x4x4x128 (shapeCast S2x4096x128 (extractStridedSlice S1x2x4096x128 ![1, 0, 0, 0]
        (m ((c : Thread nD τ).loc main_arg0)) Facts₀.slices_S3x2x4096x128_S1x2x4096x128_1_0_0_0)
        Facts₀.shapeCasts_S1x2x4096x128_S2x4096x128) Facts₀.shapeCasts_S2x4096x128_S2x256x4x4x128 := by
  show StableHlo.after hostOps0 (fun b => m (c, b)) (Proc.devRef .tc main_v7) = _
  after_results; rfl
theorem V8_eq (c : Dev nD) : (V m c main_v8 : S2x256x4x4x128.Idx → EReal)
    = shapeCast S2x256x4x4x128 (shapeCast S2x4096x128 (extractStridedSlice S1x2x4096x128 ![2, 0, 0, 0]
        (m ((c : Thread nD τ).loc main_arg0)) Facts₀.slices_S3x2x4096x128_S1x2x4096x128_2_0_0_0)
        Facts₀.shapeCasts_S1x2x4096x128_S2x4096x128) Facts₀.shapeCasts_S2x4096x128_S2x256x4x4x128 := by
  show StableHlo.after hostOps0 (fun b => m (c, b)) (Proc.devRef .tc main_v8) = _
  after_results; rfl

/-- The queries', keys' and values' arrays as the region finds them, entry by entry: the argument's part,
    re-laid. -/
theorem V6_apply (c : Dev nD) (b : Fin 2) (g : Fin 256) (w : Fin 4) (u : Fin 4) (ch : Fin 128) :
    V m c main_v6 (ix5 b g w u ch) = m ((c : Thread nD τ).loc main_arg0) (ix4 0 b (seqPos g w u) ch) := by
  rw [V6_eq]; exact KLayout.part_apply _ 0 (by omega) _ _ _ b g w u ch
theorem V7_apply (c : Dev nD) (b : Fin 2) (g : Fin 256) (w : Fin 4) (u : Fin 4) (ch : Fin 128) :
    V m c main_v7 (ix5 b g w u ch) = m ((c : Thread nD τ).loc main_arg0) (ix4 1 b (seqPos g w u) ch) := by
  rw [V7_eq]; exact KLayout.part_apply _ 1 (by omega) _ _ _ b g w u ch
theorem V8_apply (c : Dev nD) (b : Fin 2) (g : Fin 256) (w : Fin 4) (u : Fin 4) (ch : Fin 128) :
    V m c main_v8 (ix5 b g w u ch) = m ((c : Thread nD τ).loc main_arg0) (ix4 2 b (seqPos g w u) ch) := by
  rw [V8_eq]; exact KLayout.part_apply _ 2 (by omega) _ _ _ b g w u ch

/-! ## The grid: point `t` works on batch `bOf t` and window `wOf t` -/

/-- The four windows move together, and a point's block index is (batch, 0, window, 0, 0). -/
theorem idx_facts : ∀ t : Fin cfg0.N,
    win0_0.index t = win0_3.index t ∧ win0_1.index t = win0_3.index t ∧ win0_2.index t = win0_3.index t
    ∧ win0_3.index t (0 : Fin 5) ≤ 1 ∧ win0_3.index t (1 : Fin 5) = 0 ∧ win0_3.index t (2 : Fin 5) ≤ 3
    ∧ win0_3.index t (3 : Fin 5) = 0 ∧ win0_3.index t (4 : Fin 5) = 0 :=
  (by decide +kernel : ∀ t : Fin grid0.N, _)

/-- Every (batch, window) is some point's. -/
theorem idx_onto : ∀ (b : Fin 2) (w : Fin 4), ∃ t : Fin cfg0.N, win0_3.index t = ![b.val, 0, w.val, 0, 0] :=
  (by decide +kernel : ∀ (b : Fin 2) (w : Fin 4), ∃ t : Fin grid0.N, win0_3.index t = ![b.val, 0, w.val, 0, 0])

def bOf (t : Fin cfg0.N) : Fin 2 := ⟨win0_3.index t (0 : Fin 5), by have := (idx_facts t).2.2.2.1; omega⟩
def wOf (t : Fin cfg0.N) : Fin 4 := ⟨win0_3.index t (2 : Fin 5), by have := (idx_facts t).2.2.2.2.2.1; omega⟩

/-- An entry (0, g, 0, u, ch) of point `t`'s block is the array's entry (batch, g, window, u, ch) — for
    each of the four windows. -/
theorem emb0 (t : Fin cfg0.N) (g : Fin 256) (u : Fin 4) (ch : Fin 128) :
    ((cfg0.win 0).blk t).view.emb (ix5 (0 : Fin 1) g (0 : Fin 1) u ch) = ix5 (bOf t) g (wOf t) u ch := by
  obtain ⟨e0, e1, e2, h0, h1, h2, h3, h4⟩ := idx_facts t
  funext a; apply Fin.ext
  match a with
  | ⟨0, _⟩ => show win0_0.index t (0 : Fin 5) * 1 + 1 * 0 = win0_3.index t (0 : Fin 5); rw [e0]; omega
  | ⟨1, _⟩ => show win0_0.index t (1 : Fin 5) * 256 + 1 * g.val = g.val; rw [e0]; omega
  | ⟨2, _⟩ => show win0_0.index t (2 : Fin 5) * 1 + 1 * 0 = win0_3.index t (2 : Fin 5); rw [e0]; omega
  | ⟨3, _⟩ => show win0_0.index t (3 : Fin 5) * 4 + 1 * u.val = u.val; rw [e0]; omega
  | ⟨4, _⟩ => show win0_0.index t (4 : Fin 5) * 128 + 1 * ch.val = ch.val; rw [e0]; omega
theorem emb1 (t : Fin cfg0.N) (g : Fin 256) (u : Fin 4) (ch : Fin 128) :
    ((cfg0.win 1).blk t).view.emb (ix5 (0 : Fin 1) g (0 : Fin 1) u ch) = ix5 (bOf t) g (wOf t) u ch := by
  obtain ⟨e0, e1, e2, h0, h1, h2, h3, h4⟩ := idx_facts t
  funext a; apply Fin.ext
  match a with
  | ⟨0, _⟩ => show win0_1.index t (0 : Fin 5) * 1 + 1 * 0 = win0_3.index t (0 : Fin 5); rw [e1]; omega
  | ⟨1, _⟩ => show win0_1.index t (1 : Fin 5) * 256 + 1 * g.val = g.val; rw [e1]; omega
  | ⟨2, _⟩ => show win0_1.index t (2 : Fin 5) * 1 + 1 * 0 = win0_3.index t (2 : Fin 5); rw [e1]; omega
  | ⟨3, _⟩ => show win0_1.index t (3 : Fin 5) * 4 + 1 * u.val = u.val; rw [e1]; omega
  | ⟨4, _⟩ => show win0_1.index t (4 : Fin 5) * 128 + 1 * ch.val = ch.val; rw [e1]; omega
theorem emb2 (t : Fin cfg0.N) (g : Fin 256) (u : Fin 4) (ch : Fin 128) :
    ((cfg0.win 2).blk t).view.emb (ix5 (0 : Fin 1) g (0 : Fin 1) u ch) = ix5 (bOf t) g (wOf t) u ch := by
  obtain ⟨e0, e1, e2, h0, h1, h2, h3, h4⟩ := idx_facts t
  funext a; apply Fin.ext
  match a with
  | ⟨0, _⟩ => show win0_2.index t (0 : Fin 5) * 1 + 1 * 0 = win0_3.index t (0 : Fin 5); rw [e2]; omega
  | ⟨1, _⟩ => show win0_2.index t (1 : Fin 5) * 256 + 1 * g.val = g.val; rw [e2]; omega
  | ⟨2, _⟩ => show win0_2.index t (2 : Fin 5) * 1 + 1 * 0 = win0_3.index t (2 : Fin 5); rw [e2]; omega
  | ⟨3, _⟩ => show win0_2.index t (3 : Fin 5) * 4 + 1 * u.val = u.val; rw [e2]; omega
  | ⟨4, _⟩ => show win0_2.index t (4 : Fin 5) * 128 + 1 * ch.val = ch.val; rw [e2]; omega
theorem emb3 (t : Fin cfg0.N) (g : Fin 256) (u : Fin 4) (ch : Fin 128) :
    ((cfg0.win 3).blk t).view.emb (ix5 (0 : Fin 1) g (0 : Fin 1) u ch) = ix5 (bOf t) g (wOf t) u ch := by
  obtain ⟨e0, e1, e2, h0, h1, h2, h3, h4⟩ := idx_facts t
  funext a; apply Fin.ext
  match a with
  | ⟨0, _⟩ => show win0_3.index t (0 : Fin 5) * 1 + 1 * 0 = win0_3.index t (0 : Fin 5); omega
  | ⟨1, _⟩ => show win0_3.index t (1 : Fin 5) * 256 + 1 * g.val = g.val; omega
  | ⟨2, _⟩ => show win0_3.index t (2 : Fin 5) * 1 + 1 * 0 = win0_3.index t (2 : Fin 5); omega
  | ⟨3, _⟩ => show win0_3.index t (3 : Fin 5) * 4 + 1 * u.val = u.val; omega
  | ⟨4, _⟩ => show win0_3.index t (4 : Fin 5) * 128 + 1 * ch.val = ch.val; omega

/-- Each input window's block at point `t`, entry by entry, is the argument's part at batch `bOf t`, at the
    sequence position of (g, window `wOf t`, u). -/
theorem iblk0_at (c : Dev nD) (t : Fin cfg0.N) (g : Fin 256) (u : Fin 4) (ch : Fin 128) :
    iblk m c 0 t (ix5 (0 : Fin 1) g (0 : Fin 1) u ch)
      = m ((c : Thread nD τ).loc main_arg0) (ix4 0 (bOf t) (seqPos g (wOf t) u) ch) := by
  show V m c main_v6 (((cfg0.win 0).blk t).view.emb (ix5 (0 : Fin 1) g (0 : Fin 1) u ch)) = _
  rw [emb0, V6_apply]
theorem iblk1_at (c : Dev nD) (t : Fin cfg0.N) (g : Fin 256) (u : Fin 4) (ch : Fin 128) :
    iblk m c 1 t (ix5 (0 : Fin 1) g (0 : Fin 1) u ch)
      = m ((c : Thread nD τ).loc main_arg0) (ix4 1 (bOf t) (seqPos g (wOf t) u) ch) := by
  show V m c main_v7 (((cfg0.win 1).blk t).view.emb (ix5 (0 : Fin 1) g (0 : Fin 1) u ch)) = _
  rw [emb1, V7_apply]
theorem iblk2_at (c : Dev nD) (t : Fin cfg0.N) (g : Fin 256) (u : Fin 4) (ch : Fin 128) :
    iblk m c 2 t (ix5 (0 : Fin 1) g (0 : Fin 1) u ch)
      = m ((c : Thread nD τ).loc main_arg0) (ix4 2 (bOf t) (seqPos g (wOf t) u) ch) := by
  show V m c main_v8 (((cfg0.win 2).blk t).view.emb (ix5 (0 : Fin 1) g (0 : Fin 1) u ch)) = _
  rw [emb2, V8_apply]

end Cert.KArr

end
-- ==== Proof.BodyHead.lean ====
/-
  One head of the kernel body as ONE function of its three [1024, 32] slices (queries, keys, values), and its value
  at an entry. The function is written once, for any float instance, in three pieces that follow the body's order:
  the scores s = (q · scale) kᵀ, a [1024, 1024] matrix; the row maximum of the scores, spread along the row; and the
  tail, exp (s - m) summed along the row and multiplied into the values, the one divided by the other.

  At the extended reals every piece reads at an entry as the textbook expression: a score is the sum over the 32 lanes
  of the scaled query's products with the key, the spread maximum is the fold of max over the row from minus infinity,
  and the tail is the quotient of two sums over the 1024 key rows. Together they are the weighted mean `attnK` of the
  specification, for the row's scores and the values' lane.
-/
import proofs.«102169_j30588757082820_2_alg».proof.Proof.Gen.KernelIdeal
import proofs.«102169_j30588757082820_2_alg».proof.Proof.Spec
import Idealize.ShloMosaic.Lib.ValueIdx
import Idealize.ShloMosaic.Lib.Pipeline.Value
import Idealize.ShloMosaic.PureOps.Ideal.Laws

noncomputable section

namespace Cert.Body

open Idealize.ShloMosaic Idealize.ShloMosaic.ValueIdx Cert.KernelIdeal Cert.KernelIdeal.Facts₀

/-! ## The head's operations, for any float instance -/

section Generic
variable {F : FTy → Type} [FloatOps F]

/-- The scores: the queries times the scale, against the transposed keys, into a zero accumulator. -/
def scores (q k : FVec F S1024x32 .f32) : FVec F S1024x1024 .f32 :=
  matmul dot_S1024x32_S32x1024_S1024x1024_1_0_0_1_n_n none
    (truncf .bf16 (mulf q (broadcast S1024x32 (Scalar.ofBits .f32 0x3E3504F3#32))) bitsLt_bf16_f32)
    (transpose S32x1024 [1, 0] (truncf .bf16 k bitsLt_bf16_f32) transposes_S1024x32_p1_0_S32x1024)
    (constant S1024x1024 .f32 0x00000000#32)

/-- Each row's maximum score (from minus infinity), as a column, spread along the row. -/
def rowMaxB (s : FVec F S1024x1024 .f32) : FVec F S1024x1024 .f32 :=
  broadcastTo S1024x1024
    (shapeCast S1024x1 (multiReduction .maximumf [1] S1024 s 0xFF800000#32 reduces_S1024x1024_S1024 (.inl rfl) rfl) shapeCasts_S1024_S1024x1)
    broadcasts_S1024x1_S1024x1024

/-- The tail: the weights exp (s - m), their product with the values, divided by the weights' row totals. -/
def headTail (s m : FVec F S1024x1024 .f32) (v : FVec F S1024x32 .bf16) : FVec F S1024x32 .f32 :=
  divf
    (matmul dot_S1024x1024_S1024x32_S1024x32_1_0_0_1_n_n none (truncf .bf16 (exp (subf s m)) bitsLt_bf16_f32) v (constant S1024x32 .f32 0x00000000#32))
    (broadcastTo S1024x32
      (shapeCast S1024x1 (multiReduction .add [1] S1024 (exp (subf s m)) 0x00000000#32 reduces_S1024x1024_S1024 (.inl rfl) rfl) shapeCasts_S1024_S1024x1)
      broadcasts_S1024x1_S1024x32)

/-- One head, from its three slices. -/
def head (q k v : FVec F S1024x32 .f32) : FVec F S1024x32 .f32 :=
  headTail (scores q k) (rowMaxB (scores q k)) (truncf .bf16 v bitsLt_bf16_f32)

end Generic

/-! ## At the extended reals, entry by entry -/

/-- Over row `r` of the [1024] result, the source index with `k` on the reduced axis is (r, k). -/
theorem lift_row (r k : Fin 1024) :
    (reduces_S1024x1024_S1024 : S1024x1024.Reduces [1] S1024).lift (ix1 r) k = ix2 r k :=
  funext fun a => Fin.ext (by match a with | ⟨0, _⟩ => rfl | ⟨1, _⟩ => rfl)

/-- A column [1024, 1] made from a [1024] vector reads the vector at the row. -/
theorem col_apply {α : Type} (x : S1024.Idx → α) (r : Fin 1024) :
    shapeCast S1024x1 x shapeCasts_S1024_S1024x1 (ix2 r (0 : Fin 1)) = x (ix1 r) := by
  refine shapeCast_apply x _ _ _ ?_
  rw [Shape.rowMajor_val_one, Shape.rowMajor_val_two]
  show r.val = r.val * 1 + 0
  omega

/-- A column spread to [1024, 1024] reads the column at the row. -/
theorem spread1024_apply {α : Type} (x : S1024x1.Idx → α) (r j : Fin 1024) :
    broadcastTo S1024x1024 x broadcasts_S1024x1_S1024x1024 (ix2 r j) = x (ix2 r (0 : Fin 1)) :=
  broadcastTo_apply x _ _ _ (fun a => by match a with | ⟨0, _⟩ => rfl | ⟨1, _⟩ => rfl)

/-- A column spread to [1024, 32] reads the column at the row. -/
theorem spread32_apply {α : Type} (x : S1024x1.Idx → α) (r : Fin 1024) (d : Fin 32) :
    broadcastTo S1024x32 x broadcasts_S1024x1_S1024x32 (ix2 r d) = x (ix2 r (0 : Fin 1)) :=
  broadcastTo_apply x _ _ _ (fun a => by match a with | ⟨0, _⟩ => rfl | ⟨1, _⟩ => rfl)

/-! ### The two contractions' operand indices -/

theorem qk_lhs0 (i : S1024x1024.Idx) (c : dot_S1024x32_S32x1024_S1024x1024_1_0_0_1_n_n.contr.Idx) : (dot_S1024x32_S32x1024_S1024x1024_1_0_0_1_n_n.lhsIdx i c 0).val = (i 0).val := by
  unfold DotDims.lhsIdx
  rw [dif_neg (show ¬(0 : Fin S1024x32.rank) ∈ dot_S1024x32_S32x1024_S1024x1024_1_0_0_1_n_n.lhsBatch by decide),
    dif_pos (show (0 : Fin S1024x32.rank) ∈ dot_S1024x32_S32x1024_S1024x1024_1_0_0_1_n_n.lhsNonContracting by decide)]
  rfl
theorem qk_lhs1 (i : S1024x1024.Idx) (c : dot_S1024x32_S32x1024_S1024x1024_1_0_0_1_n_n.contr.Idx) : (dot_S1024x32_S32x1024_S1024x1024_1_0_0_1_n_n.lhsIdx i c 1).val = (c ⟨0, by decide⟩).val :=
  dot_S1024x32_S32x1024_S1024x1024_1_0_0_1_n_n.lhsIdx_val_of_single rfl i c
theorem qk_rhs0 (i : S1024x1024.Idx) (c : dot_S1024x32_S32x1024_S1024x1024_1_0_0_1_n_n.contr.Idx) : (dot_S1024x32_S32x1024_S1024x1024_1_0_0_1_n_n.rhsIdx i c 0).val = (c ⟨0, by decide⟩).val :=
  dot_S1024x32_S32x1024_S1024x1024_1_0_0_1_n_n.rhsIdx_val_of_single rfl i c
theorem qk_rhs1 (i : S1024x1024.Idx) (c : dot_S1024x32_S32x1024_S1024x1024_1_0_0_1_n_n.contr.Idx) : (dot_S1024x32_S32x1024_S1024x1024_1_0_0_1_n_n.rhsIdx i c 1).val = (i 1).val := by
  unfold DotDims.rhsIdx
  rw [dif_neg (show ¬(1 : Fin S32x1024.rank) ∈ dot_S1024x32_S32x1024_S1024x1024_1_0_0_1_n_n.rhsBatch by decide),
    dif_pos (show (1 : Fin S32x1024.rank) ∈ dot_S1024x32_S32x1024_S1024x1024_1_0_0_1_n_n.rhsNonContracting by decide)]
  rfl

theorem pv_lhs0 (i : S1024x32.Idx) (c : dot_S1024x1024_S1024x32_S1024x32_1_0_0_1_n_n.contr.Idx) : (dot_S1024x1024_S1024x32_S1024x32_1_0_0_1_n_n.lhsIdx i c 0).val = (i 0).val := by
  unfold DotDims.lhsIdx
  rw [dif_neg (show ¬(0 : Fin S1024x1024.rank) ∈ dot_S1024x1024_S1024x32_S1024x32_1_0_0_1_n_n.lhsBatch by decide),
    dif_pos (show (0 : Fin S1024x1024.rank) ∈ dot_S1024x1024_S1024x32_S1024x32_1_0_0_1_n_n.lhsNonContracting by decide)]
  rfl
theorem pv_lhs1 (i : S1024x32.Idx) (c : dot_S1024x1024_S1024x32_S1024x32_1_0_0_1_n_n.contr.Idx) : (dot_S1024x1024_S1024x32_S1024x32_1_0_0_1_n_n.lhsIdx i c 1).val = (c ⟨0, by decide⟩).val :=
  dot_S1024x1024_S1024x32_S1024x32_1_0_0_1_n_n.lhsIdx_val_of_single rfl i c
theorem pv_rhs0 (i : S1024x32.Idx) (c : dot_S1024x1024_S1024x32_S1024x32_1_0_0_1_n_n.contr.Idx) : (dot_S1024x1024_S1024x32_S1024x32_1_0_0_1_n_n.rhsIdx i c 0).val = (c ⟨0, by decide⟩).val :=
  dot_S1024x1024_S1024x32_S1024x32_1_0_0_1_n_n.rhsIdx_val_of_single rfl i c
theorem pv_rhs1 (i : S1024x32.Idx) (c : dot_S1024x1024_S1024x32_S1024x32_1_0_0_1_n_n.contr.Idx) : (dot_S1024x1024_S1024x32_S1024x32_1_0_0_1_n_n.rhsIdx i c 1).val = (i 1).val := by
  unfold DotDims.rhsIdx
  rw [dif_neg (show ¬(1 : Fin S1024x32.rank) ∈ dot_S1024x1024_S1024x32_S1024x32_1_0_0_1_n_n.rhsBatch by decide),
    dif_pos (show (1 : Fin S1024x32.rank) ∈ dot_S1024x1024_S1024x32_S1024x32_1_0_0_1_n_n.rhsNonContracting by decide)]
  rfl

/-- The first contraction at (r, j): the sum over the 32 lanes of row r of the left operand against column j of the right. -/
theorem qk_apply (a : FVec Ideal S1024x32 .bf16) (b : FVec Ideal S32x1024 .bf16) (r j : Fin 1024) :
    matmul dot_S1024x32_S32x1024_S1024x1024_1_0_0_1_n_n none a b (constant S1024x1024 .f32 0x00000000#32) (ix2 r j) = ∑ e : Fin 32, a (ix2 r e) * b (ix2 e j) := by
  simp only [matmul]
  rw [Ideal.matmul_constant_zero_apply, ← Equiv.sum_comp (contrEquiv1 dot_S1024x32_S32x1024_S1024x1024_1_0_0_1_n_n 32 rfl rfl).symm]
  refine Finset.sum_congr rfl fun e _ => ?_
  have hk := contrEquiv1_symm_val dot_S1024x32_S32x1024_S1024x1024_1_0_0_1_n_n 32 rfl rfl e
  have el : dot_S1024x32_S32x1024_S1024x1024_1_0_0_1_n_n.lhsIdx (ix2 r j) ((contrEquiv1 dot_S1024x32_S32x1024_S1024x1024_1_0_0_1_n_n 32 rfl rfl).symm e) = ix2 r e := funext fun x => Fin.ext (by
    match x with
    | ⟨0, _⟩ => exact qk_lhs0 _ _
    | ⟨1, _⟩ => exact (qk_lhs1 _ _).trans hk)
  have er : dot_S1024x32_S32x1024_S1024x1024_1_0_0_1_n_n.rhsIdx (ix2 r j) ((contrEquiv1 dot_S1024x32_S32x1024_S1024x1024_1_0_0_1_n_n 32 rfl rfl).symm e) = ix2 e j := funext fun x => Fin.ext (by
    match x with
    | ⟨0, _⟩ => exact (qk_rhs0 _ _).trans hk
    | ⟨1, _⟩ => exact qk_rhs1 _ _)
  rw [el, er]

/-- The second contraction at (r, d): the sum over the 1024 key rows. -/
theorem pv_apply (a : FVec Ideal S1024x1024 .bf16) (b : FVec Ideal S1024x32 .bf16) (r : Fin 1024) (d : Fin 32) :
    matmul dot_S1024x1024_S1024x32_S1024x32_1_0_0_1_n_n none a b (constant S1024x32 .f32 0x00000000#32) (ix2 r d) = ∑ j : Fin 1024, a (ix2 r j) * b (ix2 j d) := by
  simp only [matmul]
  rw [Ideal.matmul_constant_zero_apply, ← Equiv.sum_comp (contrEquiv1 dot_S1024x1024_S1024x32_S1024x32_1_0_0_1_n_n 1024 rfl rfl).symm]
  refine Finset.sum_congr rfl fun j _ => ?_
  have hk := contrEquiv1_symm_val dot_S1024x1024_S1024x32_S1024x32_1_0_0_1_n_n 1024 rfl rfl j
  have el : dot_S1024x1024_S1024x32_S1024x32_1_0_0_1_n_n.lhsIdx (ix2 r d) ((contrEquiv1 dot_S1024x1024_S1024x32_S1024x32_1_0_0_1_n_n 1024 rfl rfl).symm j) = ix2 r j := funext fun x => Fin.ext (by
    match x with
    | ⟨0, _⟩ => exact pv_lhs0 _ _
    | ⟨1, _⟩ => exact (pv_lhs1 _ _).trans hk)
  have er : dot_S1024x1024_S1024x32_S1024x32_1_0_0_1_n_n.rhsIdx (ix2 r d) ((contrEquiv1 dot_S1024x1024_S1024x32_S1024x32_1_0_0_1_n_n 1024 rfl rfl).symm j) = ix2 j d := funext fun x => Fin.ext (by
    match x with
    | ⟨0, _⟩ => exact (pv_rhs0 _ _).trans hk
    | ⟨1, _⟩ => exact pv_rhs1 _ _)
  rw [el, er]

/-! ### The three pieces at an entry -/

/-- A score: the scaled query row against the key row, over the head's 32 lanes. -/
theorem scores_apply (q k : FVec Ideal S1024x32 .f32) (r j : Fin 1024) :
    scores (F := Ideal) q k (ix2 r j) = ∑ e : Fin 32, (q (ix2 r e) * Cert.Attn.scale) * k (ix2 j e) := by
  unfold scores
  rw [qk_apply]
  refine Finset.sum_congr rfl fun e _ => ?_
  rw [transpose_apply [1, 0] _ _ (ix2 e j) (ix2 j e) (fun b => by match b with | ⟨0, _⟩ => rfl | ⟨1, _⟩ => rfl)]
  rfl

/-- The spread maximum at (r, j): the fold of max over row r, from minus infinity. -/
theorem rowMaxB_apply (s : FVec Ideal S1024x1024 .f32) (r j : Fin 1024) :
    rowMaxB (F := Ideal) s (ix2 r j) = (Finset.univ : Finset (Fin 1024)).fold max Cert.Attn.negInf (fun i => s (ix2 r i)) := by
  unfold rowMaxB
  rw [spread1024_apply, col_apply]
  refine (Ideal.multiReduction_maximumf_single s 0xFF800000#32 reduces_S1024x1024_S1024 (.inl rfl) rfl (ix1 r)).trans ?_
  show (Finset.univ : Finset (Fin 1024)).fold max Cert.Attn.negInf
    (fun i => s ((reduces_S1024x1024_S1024 : S1024x1024.Reduces [1] S1024).lift (ix1 r) i)) = _
  exact congrArg (fun f => (Finset.univ : Finset (Fin 1024)).fold max Cert.Attn.negInf f) (funext fun i => congrArg s (lift_row r i))

/-- The tail at (r, d): the weights' products with lane d of the values, summed over the key rows, divided by the weights' total. -/
theorem headTail_apply (s m : FVec Ideal S1024x1024 .f32) (v : FVec Ideal S1024x32 .bf16) (r : Fin 1024) (d : Fin 32) :
    headTail (F := Ideal) s m v (ix2 r d)
      = Ideal.div (∑ j : Fin 1024, Ideal.exp (s (ix2 r j) - m (ix2 r j)) * v (ix2 j d))
          (∑ j : Fin 1024, Ideal.exp (s (ix2 r j) - m (ix2 r j))) := by
  unfold headTail
  rw [divf_apply, pv_apply, spread32_apply, col_apply]
  refine congrArg₂ Ideal.div rfl ?_
  refine (Ideal.multiReduction_add_single (exp (subf s m)) 0x00000000#32 reduces_S1024x1024_S1024 (.inl rfl) rfl (ix1 r)).trans ?_
  show ∑ j : Fin 1024, (exp (subf s m)) ((reduces_S1024x1024_S1024 : S1024x1024.Reduces [1] S1024).lift (ix1 r) j) = _
  exact Finset.sum_congr rfl fun j _ => congrArg (exp (subf s m)) (lift_row r j)

/-- ONE HEAD at (r, d): the weighted mean of lane d of the values, by row r's scores. -/
theorem head_apply (q k v : FVec Ideal S1024x32 .f32) (r : Fin 1024) (d : Fin 32) :
    head (F := Ideal) q k v (ix2 r d)
      = Cert.Attn.attnK (fun j : Fin 1024 => ∑ e : Fin 32, (q (ix2 r e) * Cert.Attn.scale) * k (ix2 j e)) (fun j => v (ix2 j d)) := by
  unfold head
  rw [headTail_apply]
  simp only [rowMaxB_apply, scores_apply]
  rfl

end Cert.Body

end
-- ==== Proof.Body.lean ====
/-
  The kernel body's result, read at an entry. The body stores ONE value through the whole output block: the four
  heads' [1024, 32] results side by side, recast to the block's shape [1, 256, 1, 4, 128]. Each head's result is the
  one head function (BodyHead) of lanes [32h, 32h + 32) of the three loaded blocks, themselves recast to [1024, 128],
  row (g, u) of a block being row 4g + u. So the entry at row (g, u) and channel c is head c / 32 at row 4g + u and
  lane c % 32: the weighted mean `blockOut` of the specification.
-/
import proofs.«102169_j30588757082820_2_alg».proof.Proof.Gen.KernelIdeal.Frame
import proofs.«102169_j30588757082820_2_alg».proof.Proof.BodyHead

noncomputable section

namespace Cert.Body

open Idealize.ShloMosaic Idealize.ShloMosaic.ValueIdx Cert.KernelIdeal Cert.KernelIdeal.Facts₀ Cert.Attn

/-! ## The body's values are the head function of the blocks' lanes (any float instance) -/

section Generic
variable {F : FTy → Type} [FloatOps F]

/-- Head 0: lanes [0, 32). -/
theorem pay5_eq (x0 x1 x2 : Vec F S1x256x1x4x128 .f32) :
    Gen.k0_pay5 x0 x1 x2 = head (extractStridedSlice S1024x32 ![0, 0] (Gen.k0_pay2 x0) slices_S1024x128_o0_0_S1024x32) (extractStridedSlice S1024x32 ![0, 0] (Gen.k0_pay3 x1) slices_S1024x128_o0_0_S1024x32) (extractStridedSlice S1024x32 ![0, 0] (Gen.k0_pay4 x2) slices_S1024x128_o0_0_S1024x32) := rfl

/-- Head 1: lanes [32, 64). -/
theorem pay9_eq (x0 x1 x2 : Vec F S1x256x1x4x128 .f32) :
    Gen.k0_pay9 (Gen.k0_pay6 x0) (Gen.k0_pay7 x1) (Gen.k0_pay8 x2)
      = head (extractStridedSlice S1024x32 ![0, 32] (Gen.k0_pay2 x0) slices_S1024x128_o0_32_S1024x32) (extractStridedSlice S1024x32 ![0, 32] (Gen.k0_pay3 x1) slices_S1024x128_o0_32_S1024x32) (extractStridedSlice S1024x32 ![0, 32] (Gen.k0_pay4 x2) slices_S1024x128_o0_32_S1024x32) := rfl

/-- Head 2: lanes [64, 96). -/
theorem pay10_eq (v2 v5 v8 : FVec F S1024x128 .f32) :
    Gen.k0_pay10 v2 v5 v8 = head (extractStridedSlice S1024x32 ![0, 64] v2 slices_S1024x128_o0_64_S1024x32) (extractStridedSlice S1024x32 ![0, 64] v5 slices_S1024x128_o0_64_S1024x32) (extractStridedSlice S1024x32 ![0, 64] v8 slices_S1024x128_o0_64_S1024x32) := rfl

/-- Head 3, lanes [96, 128), then the four heads side by side, recast to the block's shape. -/
theorem pay1_eq (a b c : FVec F S1024x32 .f32) (v2 v5 v8 : FVec F S1024x128 .f32) :
    Gen.k0_pay1 a b c (Gen.k0_pay11 v8) (Gen.k0_pay12 v2 v5) (Gen.k0_pay13 v2 v5)
      = shapeCast S1x256x1x4x128
          (shapeCast S256x4x128
            (concatenate S1024x128 1 [⟨S1024x32, a⟩, ⟨S1024x32, b⟩, ⟨S1024x32, c⟩,
              ⟨S1024x32, head (extractStridedSlice S1024x32 ![0, 96] v2 slices_S1024x128_o0_96_S1024x32) (extractStridedSlice S1024x32 ![0, 96] v5 slices_S1024x128_o0_96_S1024x32) (extractStridedSlice S1024x32 ![0, 96] v8 slices_S1024x128_o0_96_S1024x32)⟩] concatenates_S1024x32_S1024x32_S1024x32_S1024x32_S1024x128_d1)
            shapeCasts_S1024x128_S256x4x128)
          shapeCasts_S256x4x128_S1x256x1x4x128 := rfl

end Generic

/-! ## Layout, entry by entry -/

/-- A block recast to [1024, 128]: row r is the block's row (r / 4, r % 4). -/
theorem cast_in {α : Type} (x : S1x256x1x4x128.Idx → α) (r : Fin 1024) (c : Fin 128) :
    shapeCast S1024x128 (shapeCast S256x4x128 x shapeCasts_S1x256x1x4x128_S256x4x128) shapeCasts_S256x4x128_S1024x128 (ix2 r c)
      = x (ix5 (0 : Fin 1) (rowHi r) (0 : Fin 1) (rowLo r) c) := by
  refine (shapeCast_apply _ _ (ix2 r c) (ix3 (rowHi r) (rowLo r) c) ?_).trans ?_
  · rw [Shape.rowMajor_val_three, Shape.rowMajor_val_two]
    show ((r.val / 4) * 4 + r.val % 4) * 128 + c.val = r.val * 128 + c.val
    omega
  · refine shapeCast_apply _ _ _ _ ?_
    rw [Shape.rowMajor_val_five, Shape.rowMajor_val_three]
    show ((((0 * 256 + r.val / 4) * 1 + 0) * 4 + r.val % 4) * 128 + c.val) = ((r.val / 4) * 4 + r.val % 4) * 128 + c.val
    omega

/-- The [1024, 128] result recast to the block's shape: the block's row (g, u) is row 4g + u. -/
theorem cast_out {α : Type} (y : S1024x128.Idx → α) (g : Fin 256) (u : Fin 4) (c : Fin 128) :
    shapeCast S1x256x1x4x128 (shapeCast S256x4x128 y shapeCasts_S1024x128_S256x4x128) shapeCasts_S256x4x128_S1x256x1x4x128
        (ix5 (0 : Fin 1) g (0 : Fin 1) u c)
      = y (ix2 (rowJoin g u) c) := by
  refine (shapeCast_apply _ _ _ (ix3 g u c) ?_).trans ?_
  · rw [Shape.rowMajor_val_three, Shape.rowMajor_val_five]
    show (g.val * 4 + u.val) * 128 + c.val = ((((0 * 256 + g.val) * 1 + 0) * 4 + u.val) * 128 + c.val)
    omega
  · refine shapeCast_apply _ _ _ _ ?_
    rw [Shape.rowMajor_val_two, Shape.rowMajor_val_three]
    show (g.val * 4 + u.val) * 128 + c.val = (g.val * 4 + u.val) * 128 + c.val
    rfl

/-- Lanes [o, o + 32) of a [1024, 128] array: lane e is channel o + e. -/
theorem lanes_apply {α : Type} (o : Nat) (hs : S1024x128.Slices ![0, o] S1024x32) (y : S1024x128.Idx → α) (r : Fin 1024) (e : Fin 32)
    (c : Fin 128) (hc : c.val = o + e.val) : extractStridedSlice S1024x32 ![0, o] y hs (ix2 r e) = y (ix2 r c) :=
  extractStridedSlice_apply _ y hs _ _ (fun a => by
    match a with
    | ⟨0, _⟩ => show r.val = 0 + r.val; omega
    | ⟨1, _⟩ => exact hc)

/-- Lane e of head h of a recast block at row r: the block's channel 32h + e at row (r / 4, r % 4). -/
theorem lane_in {α : Type} (h : Fin 4) (o : Nat) (ho : o = h.val * 32) (hs : S1024x128.Slices ![0, o] S1024x32)
    (x : S1x256x1x4x128.Idx → α) (r : Fin 1024) (e : Fin 32) :
    extractStridedSlice S1024x32 ![0, o]
        (shapeCast S1024x128 (shapeCast S256x4x128 x shapeCasts_S1x256x1x4x128_S256x4x128) shapeCasts_S256x4x128_S1024x128) hs (ix2 r e)
      = x (ix5 (0 : Fin 1) (rowHi r) (0 : Fin 1) (rowLo r) (chan h e)) := by
  rw [lanes_apply o hs _ r e (chan h e) (by show h.val * 32 + e.val = o + e.val; omega), cast_in]

theorem cat_apply_0 {α : Type} (p0 p1 p2 p3 : S1024x32.Idx → α) (r : Fin 1024) (c : Fin 128) (hc : c.val / 32 = 0) :
    concatenate S1024x128 1 [⟨S1024x32, p0⟩, ⟨S1024x32, p1⟩, ⟨S1024x32, p2⟩, ⟨S1024x32, p3⟩] concatenates_S1024x32_S1024x32_S1024x32_S1024x32_S1024x128_d1 (ix2 r c)
      = p0 (ix2 r (laneOf c)) :=
  concatenate_apply_piece 1 _ _ (ix2 r c) 0 (by show 0 < 4; omega) S1024x32 p0 rfl rfl 0 rfl (ix2 r (laneOf c))
    (fun b hb => by match b, hb with | ⟨0, _⟩, _ => rfl | ⟨1, _⟩, hb => exact absurd rfl hb)
    (by show 0 + c.val % 32 = c.val; omega)

theorem cat_apply_1 {α : Type} (p0 p1 p2 p3 : S1024x32.Idx → α) (r : Fin 1024) (c : Fin 128) (hc : c.val / 32 = 1) :
    concatenate S1024x128 1 [⟨S1024x32, p0⟩, ⟨S1024x32, p1⟩, ⟨S1024x32, p2⟩, ⟨S1024x32, p3⟩] concatenates_S1024x32_S1024x32_S1024x32_S1024x32_S1024x128_d1 (ix2 r c)
      = p1 (ix2 r (laneOf c)) :=
  concatenate_apply_piece 1 _ _ (ix2 r c) 1 (by show 1 < 4; omega) S1024x32 p1 rfl rfl 32 rfl (ix2 r (laneOf c))
    (fun b hb => by match b, hb with | ⟨0, _⟩, _ => rfl | ⟨1, _⟩, hb => exact absurd rfl hb)
    (by show 32 + c.val % 32 = c.val; omega)

theorem cat_apply_2 {α : Type} (p0 p1 p2 p3 : S1024x32.Idx → α) (r : Fin 1024) (c : Fin 128) (hc : c.val / 32 = 2) :
    concatenate S1024x128 1 [⟨S1024x32, p0⟩, ⟨S1024x32, p1⟩, ⟨S1024x32, p2⟩, ⟨S1024x32, p3⟩] concatenates_S1024x32_S1024x32_S1024x32_S1024x32_S1024x128_d1 (ix2 r c)
      = p2 (ix2 r (laneOf c)) :=
  concatenate_apply_piece 1 _ _ (ix2 r c) 2 (by show 2 < 4; omega) S1024x32 p2 rfl rfl 64 rfl (ix2 r (laneOf c))
    (fun b hb => by match b, hb with | ⟨0, _⟩, _ => rfl | ⟨1, _⟩, hb => exact absurd rfl hb)
    (by show 64 + c.val % 32 = c.val; omega)

theorem cat_apply_3 {α : Type} (p0 p1 p2 p3 : S1024x32.Idx → α) (r : Fin 1024) (c : Fin 128) (hc : c.val / 32 = 3) :
    concatenate S1024x128 1 [⟨S1024x32, p0⟩, ⟨S1024x32, p1⟩, ⟨S1024x32, p2⟩, ⟨S1024x32, p3⟩] concatenates_S1024x32_S1024x32_S1024x32_S1024x32_S1024x128_d1 (ix2 r c)
      = p3 (ix2 r (laneOf c)) :=
  concatenate_apply_piece 1 _ _ (ix2 r c) 3 (by show 3 < 4; omega) S1024x32 p3 rfl rfl 96 rfl (ix2 r (laneOf c))
    (fun b hb => by match b, hb with | ⟨0, _⟩, _ => rfl | ⟨1, _⟩, hb => exact absurd rfl hb)
    (by show 96 + c.val % 32 = c.val; omega)

/-! ## One head of the blocks, at an entry -/

/-- Head h of the three blocks at (r, d): the weighted mean over the key rows of the values' channel 32h + d, the scores
    the scaled dot products over the head's lanes. -/
theorem head_block (h : Fin 4) (o : Nat) (ho : o = h.val * 32) (hs : S1024x128.Slices ![0, o] S1024x32)
    (x0 x1 x2 : Vec Ideal S1x256x1x4x128 .f32) (r : Fin 1024) (d : Fin 32) :
    head (F := Ideal) (extractStridedSlice S1024x32 ![0, o] (Gen.k0_pay2 x0) hs) (extractStridedSlice S1024x32 ![0, o] (Gen.k0_pay3 x1) hs)
        (extractStridedSlice S1024x32 ![0, o] (Gen.k0_pay4 x2) hs) (ix2 r d)
      = attnK (fun j : Fin 1024 => ∑ e : Fin 32,
            (x0 (ix5 (0 : Fin 1) (rowHi r) (0 : Fin 1) (rowLo r) (chan h e)) * scale)
              * x1 (ix5 (0 : Fin 1) (rowHi j) (0 : Fin 1) (rowLo j) (chan h e)))
          (fun j : Fin 1024 => x2 (ix5 (0 : Fin 1) (rowHi j) (0 : Fin 1) (rowLo j) (chan h d))) := by
  rw [head_apply]
  have e0 : ∀ (r' : Fin 1024) (e : Fin 32), extractStridedSlice S1024x32 ![0, o] (Gen.k0_pay2 x0) hs (ix2 r' e)
      = x0 (ix5 (0 : Fin 1) (rowHi r') (0 : Fin 1) (rowLo r') (chan h e)) := fun r' e => lane_in h o ho hs x0 r' e
  have e1 : ∀ (r' : Fin 1024) (e : Fin 32), extractStridedSlice S1024x32 ![0, o] (Gen.k0_pay3 x1) hs (ix2 r' e)
      = x1 (ix5 (0 : Fin 1) (rowHi r') (0 : Fin 1) (rowLo r') (chan h e)) := fun r' e => lane_in h o ho hs x1 r' e
  have e2 : ∀ (r' : Fin 1024) (e : Fin 32), extractStridedSlice S1024x32 ![0, o] (Gen.k0_pay4 x2) hs (ix2 r' e)
      = x2 (ix5 (0 : Fin 1) (rowHi r') (0 : Fin 1) (rowLo r') (chan h e)) := fun r' e => lane_in h o ho hs x2 r' e
  simp only [e0, e1, e2]

/-! ## The stored value -/

theorem zero_offsets : (![0, 0, 0, 0, 0] : Fin 5 → Nat) = fun _ => 0 := funext fun a => by fin_cases a <;> rfl

/-- What the one store through the whole block leaves: the body's value of the three blocks themselves. -/
theorem out_eq (x0 x1 x2 : Vec Ideal S1x256x1x4x128 .f32) :
    Gen.out0_3 (F := Ideal) x0 x1 x2
      = Gen.k0_pay1 (Gen.k0_pay5 x0 x1 x2) (Gen.k0_pay9 (Gen.k0_pay6 x0) (Gen.k0_pay7 x1) (Gen.k0_pay8 x2))
          (Gen.k0_pay10 (Gen.k0_pay2 x0) (Gen.k0_pay3 x1) (Gen.k0_pay4 x2)) (Gen.k0_pay11 (Gen.k0_pay4 x2))
          (Gen.k0_pay12 (Gen.k0_pay2 x0) (Gen.k0_pay3 x1)) (Gen.k0_pay13 (Gen.k0_pay2 x0) (Gen.k0_pay3 x1)) := by
  unfold Gen.out0_3
  rw [View.canon_unit_zero zero_offsets]
  simp only [View.ld_unit_zero (S := S1x256x1x4x128) zero_offsets]

/-- THE BODY'S RESULT AT AN ENTRY: row (g, u), channel c of the stored block is the specification's `blockOut`. -/
theorem out_apply (x0 x1 x2 : Vec Ideal S1x256x1x4x128 .f32) (g : Fin 256) (u : Fin 4) (c : Fin 128) :
    Gen.out0_3 (F := Ideal) x0 x1 x2 (ix5 (0 : Fin 1) g (0 : Fin 1) u c) = blockOut x0 x1 x2 g u c := by
  rw [out_eq, pay1_eq, cast_out]
  have hrow : rowHi (rowJoin g u) = g := Fin.ext (by show (g.val * 4 + u.val) / 4 = g.val; omega)
  have hlo : rowLo (rowJoin g u) = u := Fin.ext (by show (g.val * 4 + u.val) % 4 = u.val; omega)
  have hcases : c.val / 32 = 0 ∨ c.val / 32 = 1 ∨ c.val / 32 = 2 ∨ c.val / 32 = 3 := by have := c.isLt; omega
  rcases hcases with h | h | h | h
  · have hh : headOf c = 0 := Fin.ext h
    have hc : chan 0 (laneOf c) = c := Fin.ext (by show 0 * 32 + c.val % 32 = c.val; omega)
    rw [cat_apply_0 _ _ _ _ _ _ h, pay5_eq, head_block 0 0 rfl]
    unfold blockOut
    rw [hrow, hlo, hh, hc]
  · have hh : headOf c = 1 := Fin.ext h
    have hc : chan 1 (laneOf c) = c := Fin.ext (by show 1 * 32 + c.val % 32 = c.val; omega)
    rw [cat_apply_1 _ _ _ _ _ _ h, pay9_eq, head_block 1 32 rfl]
    unfold blockOut
    rw [hrow, hlo, hh, hc]
  · have hh : headOf c = 2 := Fin.ext h
    have hc : chan 2 (laneOf c) = c := Fin.ext (by show 2 * 32 + c.val % 32 = c.val; omega)
    rw [cat_apply_2 _ _ _ _ _ _ h, pay10_eq, head_block 2 64 rfl]
    unfold blockOut
    rw [hrow, hlo, hh, hc]
  · have hh : headOf c = 3 := Fin.ext h
    have hc : chan 3 (laneOf c) = c := Fin.ext (by show 3 * 32 + c.val % 32 = c.val; omega)
    rw [cat_apply_3 _ _ _ _ _ _ h, head_block 3 96 rfl]
    unfold blockOut
    rw [hrow, hlo, hh, hc]

end Cert.Body

end
-- ==== Proof.KOut.lean ====
/-
  What the call writes, and the program's result. At point `t` the body leaves in the result window the
  function `Cert.Attn.blockOut` of the three input blocks; read through the blocks' contents this is, entry
  by entry, the head-wise attention `Cert.Attn.headK` of the argument at batch `bOf t` and window `wOf t`.
  The eight blocks tile the result array, so after the call the array is that function everywhere; the
  reshape after the call carries position (g, w, u) back to `g * 16 + w * 4 + u`, and the program's result
  is `Cert.Attn.GK` of the argument.
-/
import proofs.«102169_j30588757082820_2_alg».proof.Proof.KIn
import proofs.«102169_j30588757082820_2_alg».proof.Proof.Body
import Idealize.ShloMosaic.Lib.Pipeline.Value
import Idealize.ShloMosaic.Lib.StableHlo.Run
import Idealize.ShloMosaic.Lib.ValueIdx

set_option maxRecDepth 16384

noncomputable section

namespace Cert.KArr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Attn (chan headOf laneOf rowHi rowLo rowJoin rowOf scale)
open Cert.KLayout (seqPos)

variable (m : (ℓ : Loc nD τ sig) → Buf (Elt Ideal) ℓ) (ρ : Dev nD → PrngReg)

/-! ## Index facts -/

theorem seqPos_join (g : Fin 256) (w : Fin 4) (u : Fin 4) : seqPos g w u = rowOf w (rowJoin g u) :=
  Fin.ext (by
    show g.val * 16 + w.val * 4 + u.val = ((g.val * 4 + u.val) / 4) * 16 + w.val * 4 + (g.val * 4 + u.val) % 4
    omega)
theorem rowJoin_hi_lo (j : Fin 1024) : rowJoin (rowHi j) (rowLo j) = j :=
  Fin.ext (by show (j.val / 4) * 4 + j.val % 4 = j.val; omega)
theorem chan_head_lane (ch : Fin 128) : chan (headOf ch) (laneOf ch) = ch :=
  Fin.ext (by show (ch.val / 32) * 32 + ch.val % 32 = ch.val; omega)

/-! ## The result array of the call -/

/-- The call's result array, [2, 256, 4, 4, 128], as a function of the argument: entry (b, g, w, u, ch) is
    head `ch / 32`'s result for batch `b` and window `w` at row `g * 4 + u` and lane `ch % 32`. -/
def G5 (A : Attn.Arg.Idx → EReal) : S2x256x4x4x128.Idx → EReal := fun i =>
  Attn.headK A (i 0) (i 2) (headOf (i 4)) (rowJoin (i 1) (i 3)) (laneOf (i 4))

/-- That entry with the scores and the values spelt out over the argument. -/
theorem G5_apply (A : Attn.Arg.Idx → EReal) (b : Fin 2) (g : Fin 256) (w : Fin 4) (u : Fin 4) (ch : Fin 128) :
    G5 A (ix5 b g w u ch)
      = Attn.attnK (fun j : Fin 1024 => ∑ e : Fin 32,
            (A (ix4 0 b (rowOf w (rowJoin g u)) (chan (headOf ch) e)) * scale) * A (ix4 1 b (rowOf w j) (chan (headOf ch) e)))
          (fun j : Fin 1024 => A (ix4 2 b (rowOf w j) ch)) := by
  show Attn.attnK (Attn.score A b w (headOf ch) (rowJoin g u)) (fun k => Attn.slab A 2 b w (headOf ch) k (laneOf ch)) = _
  have e : (fun k => Attn.slab A 2 b w (headOf ch) k (laneOf ch)) = fun j : Fin 1024 => A (ix4 2 b (rowOf w j) ch) :=
    funext fun k => by unfold Attn.slab; rw [chan_head_lane]
  rw [e]; rfl

/-- WHAT POINT `t` WRITES BACK is block `t` of `G5` of the argument. -/
theorem flushed_eq (c : Dev nD) (t : Fin cfg0.N) :
    (dats m 0 c).flushed 3 t
      = ((cfg0.win 3).blk t).view.read (Elt Ideal) (G5 (m ((c : Thread nD τ).loc main_arg0))) := by
  show (cfg0.win 3).cut (grid0.coords t) ((dats m 0 c).after 3 t) = _
  rw [after0_3]
  funext y
  obtain ⟨g, u, ch, rfl⟩ : ∃ (g : Fin 256) (u : Fin 4) (ch : Fin 128), y = ix5 (0 : Fin 1) g (0 : Fin 1) u ch :=
    ⟨y 1, y 3, y 4, funext fun a => match a with
      | ⟨0, _⟩ => Fin.ext (by have h : (y 0).val < 1 := (y 0).isLt; show (y 0).val = 0; omega)
      | ⟨1, _⟩ => rfl
      | ⟨2, _⟩ => Fin.ext (by have h : (y 2).val < 1 := (y 2).isLt; show (y 2).val = 0; omega)
      | ⟨3, _⟩ => rfl
      | ⟨4, _⟩ => rfl⟩
  show out0_3 (iblk m c 0 t) (iblk m c 1 t) (iblk m c 2 t) (ix5 (0 : Fin 1) g (0 : Fin 1) u ch)
    = G5 (m ((c : Thread nD τ).loc main_arg0)) (((cfg0.win 3).blk t).view.emb (ix5 (0 : Fin 1) g (0 : Fin 1) u ch))
  rw [emb3, Body.out_apply, G5_apply]
  unfold Attn.blockOut
  simp only [iblk0_at, iblk1_at, iblk2_at, seqPos_join, rowJoin_hi_lo]

/-! ## The blocks tile the array -/

theorem mem_blk (t : Fin cfg0.N) (i : S2x256x4x4x128.Idx) :
    i ∈ ((cfg0.win 3).blk t).view.set ↔ ∀ a : Fin 5, win0_3.index t a * S1x256x1x4x128.size a ≤ (i a).val
      ∧ (i a).val < win0_3.index t a * S1x256x1x4x128.size a + S1x256x1x4x128.size a := by
  show i ∈ ((View.whole main_v9).slice (win0_3.rect t)).set ↔ _
  rw [View.set_slice_whole, Rect.mem_set_unit]
  exact Iff.rfl

/-- Every entry of the result array lies in the block of the point of its batch and window. -/
theorem cover (i : S2x256x4x4x128.Idx) :
    ∃ t : Fin cfg0.N, (cfg0.win 3).flush t = true ∧ i ∈ ((cfg0.win 3).blk t).view.set := by
  have h0 : (i 0).val < 2 := (i 0).isLt
  have h1 : (i 1).val < 256 := (i 1).isLt
  have h2 : (i 2).val < 4 := (i 2).isLt
  have h3 : (i 3).val < 4 := (i 3).isLt
  have h4 : (i 4).val < 128 := (i 4).isLt
  obtain ⟨t, ht⟩ := idx_onto ⟨(i 0).val, h0⟩ ⟨(i 2).val, h2⟩
  have q0 : win0_3.index t (0 : Fin 5) = (i 0).val := congrFun ht 0
  have q1 : win0_3.index t (1 : Fin 5) = 0 := congrFun ht 1
  have q2 : win0_3.index t (2 : Fin 5) = (i 2).val := congrFun ht 2
  have q3 : win0_3.index t (3 : Fin 5) = 0 := congrFun ht 3
  have q4 : win0_3.index t (4 : Fin 5) = 0 := congrFun ht 4
  refine ⟨t, flush0_3 t, ?_⟩
  rw [mem_blk]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 256 ≤ (i 1).val ∧ (i 1).val < win0_3.index t (1 : Fin 5) * 256 + 256; omega
  | ⟨2, _⟩ => show win0_3.index t (2 : Fin 5) * 1 ≤ (i 2).val ∧ (i 2).val < win0_3.index t (2 : Fin 5) * 1 + 1; omega
  | ⟨3, _⟩ => show win0_3.index t (3 : Fin 5) * 4 ≤ (i 3).val ∧ (i 3).val < win0_3.index t (3 : Fin 5) * 4 + 4; omega
  | ⟨4, _⟩ => show win0_3.index t (4 : Fin 5) * 128 ≤ (i 4).val ∧ (i 4).val < win0_3.index t (4 : Fin 5) * 128 + 128; omega

/-- THE RESULT ARRAY OF THE CALL after the run is `G5` of the argument. -/
theorem final (c : Dev nD) : (dats m 0 c).arrAt 3 cfg0.N = G5 (m ((c : Thread nD τ).loc main_arg0)) :=
  (dats m 0 c).arrAt_eq_of_cover 3 (G5 (m ((c : Thread nD τ).loc main_arg0))) (fun t _ => flushed_eq m c t) cover

/-! ## The reshape after the call, and the run -/

/-- The program's result: the call's array re-laid to [2, 4096, 128] is `Cert.Attn.GK` of the argument. -/
theorem tail_eq (c : Dev nD) :
    Pipeline.afterTail₀ cfgs (dats m) 0 (V0 m) [hostOps1] c main_v10 = Attn.GK (m ((c : Thread nD τ).loc main_arg0)) := by
  unfold Pipeline.afterTail₀
  show StableHlo.after hostOps1 _ (Proc.devRef .tc main_v10) = _
  after_results
  funext i
  obtain ⟨b, l, ch, rfl⟩ : ∃ (b : Fin 2) (l : Fin 4096) (ch : Fin 128), i = ix3 b l ch := ⟨i 0, i 1, i 2, eq_ix3 i⟩
  show shapeCast S2x4096x128 (Pipeline.withArrays spec0 c (V0 m c) (fun w => (dats m 0 c).arrAt w cfg0.N)
      (Proc.devRef .tc main_v9)) Facts₀.shapeCasts_S2x256x4x4x128_S2x4096x128 (ix3 b l ch) = _
  rw [KLayout.merge_apply]
  have e : Pipeline.withArrays spec0 c (V0 m c) (fun w => (dats m 0 c).arrAt w cfg0.N) (Proc.devRef .tc main_v9)
      = G5 (m ((c : Thread nD τ).loc main_arg0)) :=
    (Pipeline.withArrays_arr spec0 launch0.win.arr_inj c _ _ 3).trans (final m c)
  rw [e]; rfl

/-- THE KERNEL'S RUN, read: every weakly fair execution terminates with the result at `Cert.Attn.GK` of the
    argument and the argument unchanged. -/
theorem run : θ_run defs (onTc (τ := τ) (main (F := Ideal))) ⟨m, fun _ => 0, ρ⟩ fun r => ∀ c : Dev nD,
      r.2.mem ((c : Thread nD τ).loc main_v10) = Attn.GK (m ((c : Thread nD τ).loc main_arg0))
      ∧ r.2.mem ((c : Thread nD τ).loc main_arg0) = m ((c : Thread nD τ).loc main_arg0) :=
  (θ_run defs _ _).mono (fun r h c =>
      ⟨((h c).2 main_v10 (Pipeline.mem_restRefs_of main_v10 (by decide) (by decide))).trans (tail_eq m c),
        ((h c).2 main_arg0 (Pipeline.mem_restRefs_of main_arg0 (by decide) (by decide))).trans (W_main_arg0 m (dats m) c)⟩)
    (run_main m ρ)

end Cert.KArr

end
-- ==== Proof.lean ====
/-
  The certificate's claims, assembled.

  Both programs run from memories that agree on the argument array. The kernel's result array is the first
  arrangement of windowed attention of its argument (the weighted sum divided by the weights' total); the
  reference's is the second (the values summed against weights already divided by the total). Under the
  precondition every entry of the argument is a real number, and on a real argument the two arrangements are one
  array. Each program leaves its argument unchanged.
-/
import proofs.«102169_j30588757082820_2_alg».proof.Defs
import proofs.«102169_j30588757082820_2_alg».proof.Proof.Gen.Kernel
import proofs.«102169_j30588757082820_2_alg».proof.Proof.Gen.Kernel.Skeleton
import proofs.«102169_j30588757082820_2_alg».proof.Proof.Gen.Kernel.Launch
import proofs.«102169_j30588757082820_2_alg».proof.Proof.Gen.Kernel.Points
import proofs.«102169_j30588757082820_2_alg».proof.Proof.Gen.Kernel.Frame
import proofs.«102169_j30588757082820_2_alg».proof.Proof.Gen.KernelIdeal
import proofs.«102169_j30588757082820_2_alg».proof.Proof.Gen.KernelIdeal.Skeleton
import proofs.«102169_j30588757082820_2_alg».proof.Proof.Gen.KernelIdeal.Launch
import proofs.«102169_j30588757082820_2_alg».proof.Proof.Gen.KernelIdeal.Points
import proofs.«102169_j30588757082820_2_alg».proof.Proof.Gen.KernelIdeal.Frame
import proofs.«102169_j30588757082820_2_alg».proof.Proof.Gen.ReferenceIdeal
import proofs.«102169_j30588757082820_2_alg».proof.Proof.Gen.ReferenceIdeal.Run
import proofs.«102169_j30588757082820_2_alg».proof.Proof.Gen.ReferenceIdeal.Read
import proofs.«102169_j30588757082820_2_alg».proof.Proof.Gen.Pre_finite_inputs
import proofs.«102169_j30588757082820_2_alg».proof.Proof.Finite
import proofs.«102169_j30588757082820_2_alg».proof.Proof.RefSide
import proofs.«102169_j30588757082820_2_alg».proof.Proof.KOut
import Idealize.ShloMosaic.Adequacy
import Idealize.ShloMosaic.Init

noncomputable section

namespace Cert.Proof

open Idealize.ShloMosaic Idealize.SL.Sem

/-- The kernel as printed runs and leaves its argument unchanged. -/
theorem frame_p : Cert.frame_Kernel := fun m ρ _ => Cert.Kernel.Gen.frame m ρ

/-- The kernel read over the extended reals runs and leaves its argument unchanged. -/
theorem frame_pi : Cert.frame_KernelIdeal := fun m ρ _ => Cert.KernelIdeal.Gen.frame m ρ

/-- The reference runs and leaves its argument unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on the argument, the kernel ends with the first arrangement of windowed attention
    of the argument and the reference with the second; the precondition makes every entry of the argument a
    real number, and on a real argument the two arrangements are equal. -/
theorem algebraic : Cert.algebraic_KernelIdeal_ReferenceIdeal := by
  intro m ρ m' ρ' hpre hagree
  refine ⟨fun c => Cert.Attn.GK (m ((c.tc : Thread Cert.KernelIdeal.nD Cert.KernelIdeal.τ).loc Cert.KernelIdeal.main_arg0)),
    Cert.KArr.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v37_eq m' c).trans ?_
  refine (Cert.RefSide.ref_eq _).trans ?_
  refine (congrArg Cert.Attn.GR (hagree c)).trans ?_
  exact (Cert.Attn.GK_eq_GR _ (Cert.Finite.real_of_pre _ (hpre c))).symm

theorem claim : Cert.Claim := ⟨Cert.Kernel.Gen.facts, Cert.KernelIdeal.Gen.facts, Cert.ReferenceIdeal.Gen.facts, Cert.Pre_finite_inputs.Gen.facts, by
  exact ⟨frame_p, frame_pi, frame_ri, preserves, algebraic⟩⟩

end Cert.Proof

end
